-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2 : Shape := ⟨1, ![2]⟩
abbrev S4096x200x2 : Shape := ⟨3, ![4096, 200, 2]⟩
abbrev S4096x200x64 : Shape := ⟨3, ![4096, 200, 64]⟩
abbrev S4096x199x64 : Shape := ⟨3, ![4096, 199, 64]⟩
abbrev S4096x200x65 : Shape := ⟨3, ![4096, 200, 65]⟩
abbrev S4096 : Shape := ⟨1, ![4096]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_
  bcast_S_S4096x200x64 : S_.BroadcastsInDim S4096x200x64 (![] : Fin 0 → Fin S4096x200x64.rank)
  reducesTo_S4096x200x64_S_d0_1_2 : S4096x200x64.ReducesTo [0, 1, 2] S_
  bcast_S_S4096x199x64 : S_.BroadcastsInDim S4096x199x64 (![] : Fin 0 → Fin S4096x199x64.rank)
  reducesTo_S4096x199x64_S_d0_1_2 : S4096x199x64.ReducesTo [0, 1, 2] S_
  bcast_S_S4096x200x65 : S_.BroadcastsInDim S4096x200x65 (![] : Fin 0 → Fin S4096x200x65.rank)
  reducesTo_S4096x200x65_S_d0_1_2 : S4096x200x65.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x200x65 .f32) (main_arg5 : IVec S4096 32) (main_v13 : IVec S_ 1) (main_v16 : IVec S4096x199x64 1) : IVec S_ 1 :=
  let main_c_5 : IVec S_ 1 := constantI S_ 1 1#1
  let main_v17 : IVec S_ 1 := (fun x v => Host.reduce IntOp.andi x v reducesTo_S4096x199x64_S_d0_1_2 h_S_) main_v16 main_c_5
  let main_v18 : IVec S_ 1 := andi main_v13 main_v17
  let main_v19 : FVec F S4096x200x65 .f32 := Host.absf main_arg4
  let main_cst_6 : FVec F S_ .f32 := constant S_ .f32 0x7F800000#32
  let main_v20 : FVec F S4096x200x65 .f32 := broadcastInDim S4096x200x65 ![] bcast_S_S4096x200x65 main_cst_6
  let main_v21 : IVec S4096x200x65 1 := cmpf .olt main_v19 main_v20
  let main_c_7 : IVec S_ 1 := constantI S_ 1 1#1
  let main_v22 : IVec S_ 1 := (fun x v => Host.reduce IntOp.andi x v reducesTo_S4096x200x65_S_d0_1_2 h_S_) main_v21 main_c_7
  let main_v23 : IVec S_ 1 := andi main_v18 main_v22
  let main_c_8 : IVec S_ 32 := constantI S_ 32 200#32
  let main_v24 : IVec S4096 32 := broadcastInDim S4096 ![] bcast_S_S4096 main_c_8
  let main_v25 : IVec S4096 1 := cmpi .sle main_arg5 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  main_v27

def fn {F : FTy → Type} [FloatOps F] (main_arg0 : FVec F S2 .f32) (main_arg1 : FVec F S4096x200x2 .f32) (main_arg2 : FVec F S4096x200x64 .f32) (main_arg3 : FVec F S4096x199x64 .f32) (main_arg4 : FVec F S4096x200x65 .f32) (main_arg5 : IVec S4096 32) : IVec S_ 1 :=
  let main_v0 : FVec F S2 .f32 := Host.absf main_arg0
  let main_cst : FVec F S_ .f32 := constant S_ .f32 0x7F800000#32
  let main_v1 : FVec F S2 .f32 := broadcastInDim S2 ![] bcast_S_S2 main_cst
  let main_v2 : IVec S2 1 := cmpf .olt main_v0 main_v1
  let main_c : IVec S_ 1 := constantI S_ 1 1#1
  let main_v3 : IVec S_ 1 := (fun x v => Host.reduce IntOp.andi x v reducesTo_S2_S_d0 h_S_) main_v2 main_c
  let main_v4 : FVec F S4096x200x2 .f32 := Host.absf main_arg1
  let main_cst_0 : FVec F S_ .f32 := constant S_ .f32 0x7F800000#32
  let main_v5 : FVec F S4096x200x2 .f32 := broadcastInDim S4096x200x2 ![] bcast_S_S4096x200x2 main_cst_0
  let main_v6 : IVec S4096x200x2 1 := cmpf .olt main_v4 main_v5
  let main_c_1 : IVec S_ 1 := constantI S_ 1 1#1
  let main_v7 : IVec S_ 1 := (fun x v => Host.reduce IntOp.andi x v reducesTo_S4096x200x2_S_d0_1_2 h_S_) main_v6 main_c_1
  let main_v8 : IVec S_ 1 := andi main_v3 main_v7
  let main_v9 : FVec F S4096x200x64 .f32 := Host.absf main_arg2
  let main_cst_2 : FVec F S_ .f32 := constant S_ .f32 0x7F800000#32
  let main_v10 : FVec F S4096x200x64 .f32 := broadcastInDim S4096x200x64 ![] bcast_S_S4096x200x64 main_cst_2
  let main_v11 : IVec S4096x200x64 1 := cmpf .olt main_v9 main_v10
  let main_c_3 : IVec S_ 1 := constantI S_ 1 1#1
  let main_v12 : IVec S_ 1 := (fun x v => Host.reduce IntOp.andi x v reducesTo_S4096x200x64_S_d0_1_2 h_S_) main_v11 main_c_3
  let main_v13 : IVec S_ 1 := andi main_v8 main_v12
  let main_v14 : FVec F S4096x199x64 .f32 := Host.absf main_arg3
  let main_cst_4 : FVec F S_ .f32 := constant S_ .f32 0x7F800000#32
  let main_v15 : FVec F S4096x199x64 .f32 := broadcastInDim S4096x199x64 ![] bcast_S_S4096x199x64 main_cst_4
  let main_v16 : IVec S4096x199x64 1 := cmpf .olt main_v14 main_v15
  fn_part1 (F := F) main_arg4 main_arg5 main_v13 main_v16
-- ==== Kernel.lean ====
abbrev S2 : Shape := ⟨1, ![2]⟩
abbrev S4096x200x2 : Shape := ⟨3, ![4096, 200, 2]⟩
abbrev S4096x200x64 : Shape := ⟨3, ![4096, 200, 64]⟩
abbrev S4096x199x64 : Shape := ⟨3, ![4096, 199, 64]⟩
abbrev S4096x200x65 : Shape := ⟨3, ![4096, 200, 65]⟩
abbrev S4096 : Shape := ⟨1, ![4096]⟩
abbrev S4096x400 : Shape := ⟨2, ![4096, 400]⟩
abbrev S1x2 : Shape := ⟨2, ![1, 2]⟩
abbrev S200x2 : Shape := ⟨2, ![200, 2]⟩
abbrev S400 : Shape := ⟨1, ![400]⟩
abbrev S1x400 : Shape := ⟨2, ![1, 400]⟩
abbrev S4096x1 : Shape := ⟨2, ![4096, 1]⟩
abbrev S128x8x128 : Shape := ⟨3, ![128, 8, 128]⟩
abbrev S32x400 : Shape := ⟨2, ![32, 400]⟩
abbrev S32x200x65 : Shape := ⟨3, ![32, 200, 65]⟩
abbrev S32x199x64 : Shape := ⟨3, ![32, 199, 64]⟩
abbrev S32x1 : Shape := ⟨2, ![32, 1]⟩
abbrev S1x8x128 : Shape := ⟨3, ![1, 8, 128]⟩
abbrev S32x398 : Shape := ⟨2, ![32, 398]⟩
abbrev S32 : Shape := ⟨1, ![32]⟩
abbrev S1 : Shape := ⟨1, ![1]⟩
abbrev S1x1 : Shape := ⟨2, ![1, 1]⟩
abbrev S32x199 : Shape := ⟨2, ![32, 199]⟩
abbrev S32x199x1 : Shape := ⟨3, ![32, 199, 1]⟩
abbrev S32x1x1 : Shape := ⟨3, ![32, 1, 1]⟩
abbrev S1x1x1 : Shape := ⟨3, ![1, 1, 1]⟩
abbrev S128x1x1 : Shape := ⟨3, ![128, 1, 1]⟩
abbrev S128 : Shape := ⟨1, ![128]⟩
abbrev S_ : Shape := ⟨0, ![]⟩

abbrev nBuf : Space → Nat
  | .hbm => 41
  | .vmem => 15
  | .smem => 0
  | _ => 0

abbrev bufTy : (tb : Table) → Fin (tcTables nBuf tb) → BufTy
  | .hbm, ⟨0, _⟩ => ⟨S2, .f32⟩
  | .hbm, ⟨1, _⟩ => ⟨S4096x200x2, .f32⟩
  | .hbm, ⟨2, _⟩ => ⟨S4096x200x64, .f32⟩
  | .hbm, ⟨3, _⟩ => ⟨S4096x199x64, .f32⟩
  | .hbm, ⟨4, _⟩ => ⟨S4096x200x65, .f32⟩
  | .hbm, ⟨5, _⟩ => ⟨S4096, .i32⟩
  | .hbm, ⟨6, _⟩ => ⟨S4096x400, .f32⟩
  | .hbm, ⟨7, _⟩ => ⟨S1x2, .f32⟩
  | .hbm, ⟨8, _⟩ => ⟨S200x2, .f32⟩
  | .hbm, ⟨9, _⟩ => ⟨S400, .f32⟩
  | .hbm, ⟨10, _⟩ => ⟨S1x400, .f32⟩
  | .hbm, ⟨11, _⟩ => ⟨S4096x1, .i32⟩
  | .hbm, ⟨12, _⟩ => ⟨S128x8x128, .f32⟩
  | .hbm, ⟨13, _⟩ => ⟨S128x8x128, .f32⟩
  | .hbm, ⟨14, _⟩ => ⟨S128x8x128, .f32⟩
  | .hbm, ⟨15, _⟩ => ⟨S128x1x1, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S128x1x1, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S128x1x1, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S32x400, .f32⟩
  | .local _ .vmem, ⟨1, _⟩ => ⟨S32x400, .f32⟩
  | .local _ .vmem, ⟨2, _⟩ => ⟨S1x400, .f32⟩
  | .local _ .vmem, ⟨3, _⟩ => ⟨S32x200x65, .f32⟩
  | .local _ .vmem, ⟨4, _⟩ => ⟨S32x200x65, .f32⟩
  | .local _ .vmem, ⟨5, _⟩ => ⟨S32x199x64, .f32⟩
  | .local _ .vmem, ⟨6, _⟩ => ⟨S32x199x64, .f32⟩
  | .local _ .vmem, ⟨7, _⟩ => ⟨S32x1, .i32⟩
  | .local _ .vmem, ⟨8, _⟩ => ⟨S32x1, .i32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x200x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x199x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096x200x2_S4096x400 : S4096x200x2.ShapeCasts S4096x400
  shapeCasts_S2_S1x2 : S2.ShapeCasts S1x2
  bcast_S1x2_S200x2_0_1 : S1x2.BroadcastsInDim S200x2 (![0, 1] : Fin 2 → Fin S200x2.rank)
  shapeCasts_S200x2_S400 : S200x2.ShapeCasts S400
  shapeCasts_S400_S1x400 : S400.ShapeCasts S1x400
  shapeCasts_S4096_S4096x1 : S4096.ShapeCasts S4096x1
  inb_S32x400_S32x400_0_0 : ∀ a, (![0, 0] : Fin 2 → Nat) a + S32x400.size a ≤ S32x400.size a
  h_S32x400 : 0 < S32x400.numel
  shapeCasts_S32x400_S32x400 : S32x400.ShapeCasts S32x400
  slices_S32x400_o0_0_S32x398 : S32x400.Slices ![0, 0] S32x398
  slices_S32x400_o0_2_S32x398 : S32x400.Slices ![0, 2] S32x398
  reduces_S32x398_S32 : S32x398.Reduces [1] S32
  shapeCasts_S32_S32x1 : S32.ShapeCasts S32x1
  reduces_S32x1_S1 : S32x1.Reduces [0] S1
  shapeCasts_S1_S1x1 : S1.ShapeCasts S1x1
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S32x400 : S1x400.Broadcasts S32x400
  reduces_S32x400_S32 : S32x400.Reduces [1] S32
  inb_S32x200x65_S32x200x65_0_0_0 : ∀ a, (![0, 0, 0] : Fin 3 → Nat) a + S32x200x65.size a ≤ S32x200x65.size a
  h_S32x200x65 : 0 < S32x200x65.numel
  slices_S32x200x65_o0_1_1_S32x199x64 : S32x200x65.Slices ![0, 1, 1] S32x199x64
  inb_S32x199x64_S32x199x64_0_0_0 : ∀ a, (![0, 0, 0] : Fin 3 → Nat) a + S32x199x64.size a ≤ S32x199x64.size a
  h_S32x199x64 : 0 < S32x199x64.numel
  reduces_S32x199x64_S32x199 : S32x199x64.Reduces [2] S32x199
  shapeCasts_S32x199_S32x199x1 : S32x199.ShapeCasts S32x199x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x1_S32x1x1 : S32x1.ShapeCasts S32x1x1
  iota_S32x199x1_d1_w32 : S32x199x1.Iotas .tc 32 [1]
  broadcasts_S32x1x1_S32x199x1 : S32x1x1.Broadcasts S32x199x1
  natLt_1_32 : 1 < 32
  reduces_S32x199x1_S32x1 : S32x199x1.Reduces [1] S32x1
  reduces_S32x1x1_S1x1 : S32x1x1.Reduces [0] S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S128x8x128_S128x1x1_0_0_0 : S128x8x128.Slices ![0, 0, 0] S128x1x1
  shapeCasts_S128x1x1_S128 : S128x1x1.ShapeCasts S128
  reducesTo_S128_S_d0 : S128.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x400.size a ≤ S4096x400.size a
  hwx0_0 : ∀ i : grid0.Coords, EltTy.bits .f32 = 32 ∨ (Rect.block (s := S4096x400) S32x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x400.size a ≤ S1x400.size a
  hwx0_1 : ∀ i : grid0.Coords, EltTy.bits .f32 = 32 ∨ (Rect.block (s := S1x400) S1x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200x65.size a ≤ S4096x200x65.size a
  hwx0_2 : ∀ i : grid0.Coords, EltTy.bits .f32 = 32 ∨ (Rect.block (s := S4096x200x65) S32x200x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x199x64.size a ≤ S4096x199x64.size a
  hwx0_3 : ∀ i : grid0.Coords, EltTy.bits .f32 = 32 ∨ (Rect.block (s := S4096x199x64) S32x199x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S4096x1.size a
  hwx0_4 : ∀ i : grid0.Coords, EltTy.bits .i32 = 32 ∨ (Rect.block (s := S4096x1) S32x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S128x8x128.size a
  hwx0_5 : ∀ i : grid0.Coords, EltTy.bits .f32 = 32 ∨ (Rect.block (s := S128x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S128x8x128.size a
  hwx0_6 : ∀ i : grid0.Coords, EltTy.bits .f32 = 32 ∨ (Rect.block (s := S128x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S128x8x128.size a
  hwx0_7 : ∀ i : grid0.Coords, EltTy.bits .f32 = 32 ∨ (Rect.block (s := S128x8x128) S1x8x128.size (cc0_transform_7 i) (hinb0_7 i)).WholeWords (EltTy.packing .f32)

variable [Facts₀]

abbrev win0_0 : Pipeline.Window sig grid0 :=
  Pipeline.Window.ofSpec (Memref.whole main_v0) S32x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x200x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x199x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2 : Shape := ⟨1, ![2]⟩
abbrev S4096x200x2 : Shape := ⟨3, ![4096, 200, 2]⟩
abbrev S4096x200x64 : Shape := ⟨3, ![4096, 200, 64]⟩
abbrev S4096x199x64 : Shape := ⟨3, ![4096, 199, 64]⟩
abbrev S4096x200x65 : Shape := ⟨3, ![4096, 200, 65]⟩
abbrev S4096 : Shape := ⟨1, ![4096]⟩
abbrev S199 : Shape := ⟨1, ![199]⟩
abbrev S1x199 : Shape := ⟨2, ![1, 199]⟩
abbrev S4096x1 : Shape := ⟨2, ![4096, 1]⟩
abbrev S_ : Shape := ⟨0, ![]⟩
abbrev S4096x199 : Shape := ⟨2, ![4096, 199]⟩
abbrev S4096x199x1 : Shape := ⟨3, ![4096, 199, 1]⟩
abbrev S4096x199x2 : Shape := ⟨3, ![4096, 199, 2]⟩
abbrev S1x1x2 : Shape := ⟨3, ![1, 1, 2]⟩

abbrev nBuf : Space → Nat
  | .hbm => 73
  | .vmem => 0
  | .smem => 0
  | _ => 0

abbrev bufTy : (tb : Table) → Fin (tcTables nBuf tb) → BufTy
  | .hbm, ⟨0, _⟩ => ⟨S2, .f32⟩
  | .hbm, ⟨1, _⟩ => ⟨S4096x200x2, .f32⟩
  | .hbm, ⟨2, _⟩ => ⟨S4096x200x64, .f32⟩
  | .hbm, ⟨3, _⟩ => ⟨S4096x199x64, .f32⟩
  | .hbm, ⟨4, _⟩ => ⟨S4096x200x65, .f32⟩
  | .hbm, ⟨5, _⟩ => ⟨S4096, .i32⟩
  | .hbm, ⟨6, _⟩ => ⟨S4096x199x64, .f32⟩
  | .hbm, ⟨7, _⟩ => ⟨S4096x199x64, .f32⟩
  | .hbm, ⟨8, _⟩ => ⟨S4096x199x64, .f32⟩
  | .hbm, ⟨9, _⟩ => ⟨S199, .i32⟩
  | .hbm, ⟨10, _⟩ => ⟨S1x199, .i32⟩
  | .hbm, ⟨11, _⟩ => ⟨S4096x1, .i32⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x199, .i32⟩
  | .hbm, ⟨16, _⟩ => ⟨S4096x199, .i32⟩
  | .hbm, ⟨17, _⟩ => ⟨S4096x199, .i1⟩
  | .hbm, ⟨18, _⟩ => ⟨S4096x199, .f32⟩
  | .hbm, ⟨19, _⟩ => ⟨S4096x199x1, .f32⟩
  | .hbm, ⟨20, _⟩ => ⟨S4096x199x64, .f32⟩
  | .hbm, ⟨21, _⟩ => ⟨S4096x199x64, .f32⟩
  | .hbm, ⟨22, _⟩ => ⟨S_, .f32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x199x2, .f32⟩
  | .hbm, ⟨47, _⟩ => ⟨S4096x199x2, .f32⟩
  | .hbm, ⟨48, _⟩ => ⟨S4096x199x2, .f32⟩
  | .hbm, ⟨49, _⟩ => ⟨S4096x199x2, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x1x2, .f32⟩
  | .hbm, ⟨55, _⟩ => ⟨S4096x200x2, .f32⟩
  | .hbm, ⟨56, _⟩ => ⟨S4096x200x2, .f32⟩
  | .hbm, ⟨57, _⟩ => ⟨S_, .f32⟩
  | .hbm, ⟨58, _⟩ => ⟨S4096x200x2, .f32⟩
  | .hbm, ⟨59, _⟩ => ⟨S4096x200x2, .f32⟩
  | .hbm, ⟨60, _⟩ => ⟨S4096x200x2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  slices_S4096x200x65_S4096x199x64_0_1_1 : S4096x200x65.Slices ![0, 1, 1] S4096x199x64
  bcast_S199_S1x199_1 : S199.BroadcastsInDim S1x199 (![1] : Fin 1 → Fin S1x199.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x199_S4096x199_0_1 : S1x199.BroadcastsInDim S4096x199 (![0, 1] : Fin 2 → Fin S4096x199.rank)
  bcast_S4096x1_S4096x199_0_1 : S4096x1.BroadcastsInDim S4096x199 (![0, 1] : Fin 2 → Fin S4096x199.rank)
  bcast_S4096x199_S4096x199x1_0_1 : S4096x199.BroadcastsInDim S4096x199x1 (![0, 1] : Fin 2 → Fin S4096x199x1.rank)
  bcast_S4096x199x1_S4096x199x64_0_1_2 : S4096x199x1.BroadcastsInDim S4096x199x64 (![0, 1, 2] : Fin 3 → Fin S4096x199x64.rank)
  reducesTo_S4096x199x64_S4096_d1_2 : S4096x199x64.ReducesTo [1, 2] S4096
  h_S_ : 0 < S_.numel
  bcast_S_S4096 : S_.BroadcastsInDim S4096 (![] : Fin 0 → Fin S4096.rank)
  reducesTo_S4096_S_d0 : S4096.ReducesTo [0] S_
  slices_S4096x200x2_S4096x199x2_0_0_0 : S4096x200x2.Slices ![0, 0, 0] S4096x199x2
  slices_S4096x200x2_S4096x199x2_0_1_0 : S4096x200x2.Slices ![0, 1, 0] S4096x199x2
  reducesTo_S4096x199x2_S_d0_1_2 : S4096x199x2.ReducesTo [0, 1, 2] S_
  bcast_S2_S1x1x2_2 : S2.BroadcastsInDim S1x1x2 (![2] : Fin 1 → Fin S1x1x2.rank)
  bcast_S1x1x2_S4096x200x2_0_1_2 : S1x1x2.BroadcastsInDim S4096x200x2 (![0, 1, 2] : Fin 3 → Fin S4096x200x2.rank)
  bcast_S_S4096x200x2 : S_.BroadcastsInDim S4096x200x2 (![] : Fin 0 → Fin S4096x200x2.rank)
  reducesTo_S4096x200x2_S_d0_1_2 : S4096x200x2.ReducesTo [0, 1, 2] S_

variable [Facts₀]

class Facts : Prop extends Facts₀ where

variable [Facts]
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.LibRank3.lean ====
/-
  Rank-3 arrays with a unit axis, read at an index given by coordinates.

  Mean-centring a stack of matrices with kept dimensions, stacking columns into a last axis, and spreading a
  per-row number over a row all print as the same few layout operations: a cast that adds or drops a unit axis
  (the row-major position does not change), and a broadcast along a unit axis (the coordinate on that axis is
  forgotten). Each lemma reads one of them at `(i, j, k)`.
-/
import Idealize.ShloMosaic.Lib.Pipeline.Value
import Idealize.ShloMosaic.Lib.ValueIdx

namespace Cert.LibRank3

open Idealize.ShloMosaic Idealize.ShloMosaic.ValueIdx

variable {α : Type}

/-- `[a, b, 1]` broadcast along the last axis to `[a, b, c]`: at `(i, j, k)` the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, 1, c]` broadcast along the middle axis to `[a, b, c]`: at `(i, j, k)` the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[a, 1, 1]` broadcast along the last axis to `[a, 1, c]`: at `(i, 0, k)` the operand at `(i, 0, 0)`. -/
theorem broadcastTo_a11_a1c_apply {a c : ℕ} (v : (⟨3, ![a, 1, 1]⟩ : Shape).Idx → α)
    (h : (⟨3, ![a, 1, 1]⟩ : Shape).Broadcasts ⟨3, ![a, 1, c]⟩) (i : Fin a) (u : Fin 1) (k : Fin c) :
    broadcastTo ⟨3, ![a, 1, c]⟩ v h (ix3 i u k) = v (ix3 i (0 : Fin 1) (0 : Fin 1)) := by
  refine broadcastTo_apply v h (ix3 i u k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- `[a, b]` cast to `[a, b, 1]`: at `(i, j, 0)` the operand at `(i, j)`. -/
theorem shapeCast_ab_ab1_apply {a b : ℕ} (v : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ v h (ix3 i j u) = v (ix2 i j) :=
  shapeCast_apply v h _ _ (by
    have hu : u.val = 0 := by omega
    rw [Shape.rowMajor_val_two, Shape.rowMajor_val_three]
    show i.val * b + j.val = (i.val * b + j.val) * 1 + u.val
    omega)

/-- `[a, b, 1]` cast to `[a, b]`: at `(i, j)` the operand at `(i, j, 0)`. -/
theorem shapeCast_ab1_ab_apply {a b : ℕ} (v : (⟨3, ![a, b, 1]⟩ : Shape).Idx → α)
    (h : (⟨3, ![a, b, 1]⟩ : Shape).ShapeCasts ⟨2, ![a, b]⟩) (i : Fin a) (j : Fin b) :
    shapeCast ⟨2, ![a, b]⟩ v h (ix2 i j) = v (ix3 i j (0 : Fin 1)) :=
  shapeCast_apply v h _ _ (by
    rw [Shape.rowMajor_val_two, Shape.rowMajor_val_three]
    show (i.val * b + j.val) * 1 + 0 = i.val * b + j.val
    omega)

/-- `[a, c]` cast to `[a, 1, c]`: at `(i, 0, k)` the operand at `(i, k)`. -/
theorem shapeCast_ac_a1c_apply {a c : ℕ} (v : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ v h (ix3 i u k) = v (ix2 i k) :=
  shapeCast_apply v h _ _ (by
    have hu : u.val = 0 := by omega
    rw [Shape.rowMajor_val_two, Shape.rowMajor_val_three]
    show i.val * c + k.val = (i.val * 1 + u.val) * c + k.val
    rw [hu, Nat.mul_one, Nat.add_zero])

/-- `[a, 1]` cast to `[a, 1, 1]`: at `(i, 0, 0)` the operand at `(i, 0)`. -/
theorem shapeCast_a1_a11_apply {a : ℕ} (v : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ v h (ix3 i u u') = v (ix2 i (0 : Fin 1)) :=
  shapeCast_apply v h _ _ (by
    have hu : u.val = 0 := by omega
    have hu' : u'.val = 0 := by omega
    rw [Shape.rowMajor_val_two, Shape.rowMajor_val_three]
    show i.val * 1 + 0 = (i.val * 1 + u.val) * 1 + u'.val
    omega)

end Cert.LibRank3
-- ==== Proof.RowTerms.lean ====
/-
  The three per-row quantities of the regularizer, as functions of one individual's data.

  For one individual (one row b of the batch):
  * the drift term: with the T = 200 steps of P = 2 parameters laid flat in a row of 400 numbers f, step t's
    parameter p sits at position 2t + p, so the difference between consecutive steps at the same parameter is
    f j - f (j + 2), and the row's term is the sum of its squares over the 398 positions j;
  * the global term: the sum over the 400 positions of (f j / g j - 1)², g the global parameters tiled along the row;
  * the one-step-ahead term: the sum over steps t < 199 of (the sum over the 64 covariates d of
    (cov (t+1) (d+1) - pred t d)²) times the 0/1 mask "t < length - 1", divided by max(length - 1, 1) · 64, and
    taken only when length > 1.
-/
import Idealize.ShloMosaic.PureOps.Ideal.Laws
import Idealize.ShloMosaic.Lib.ValueIdx

open scoped BigOperators

noncomputable section

namespace Cert.RowTerms

open Idealize.ShloMosaic

/-- Position j of the 398 differences, as a position of the row of 400. -/
def lo (j : Fin 398) : Fin 400 := ⟨j.val, Nat.lt_of_lt_of_le j.isLt (by decide)⟩
/-- The same parameter one step later: two positions on. -/
def hi (j : Fin 398) : Fin 400 := ⟨j.val + 2, Nat.add_lt_of_lt_sub j.isLt⟩

/-- The drift term of a row laid flat. -/
def thetaRow (f : Fin 400 → EReal) : EReal :=
  ∑ j : Fin 398, (f (lo j) - f (hi j)) * (f (lo j) - f (hi j))

/-- The global term of a row laid flat against the tiled global parameters; `one` is the literal 1. -/
def globalRow (one : EReal) (f g : Fin 400 → EReal) : EReal :=
  ∑ j : Fin 400, (Ideal.div (f j) (g j) - one) * (Ideal.div (f j) (g j) - one)

/-- Step t + 1 of the 200 steps; covariate d + 1 of the 65 columns. -/
def stepSucc (t : Fin 199) : Fin 200 := ⟨t.val + 1, Nat.add_lt_of_lt_sub t.isLt⟩
def covSucc (d : Fin 64) : Fin 65 := ⟨d.val + 1, Nat.add_lt_of_lt_sub d.isLt⟩

/-- The squared one-step-ahead error at step t and covariate d. -/
def sqErr (cv : Fin 200 → Fin 65 → EReal) (sp : Fin 199 → Fin 64 → EReal) (t : Fin 199) (d : Fin 64) : EReal :=
  (cv (stepSucc t) (covSucc d) - sp t d) * (cv (stepSucc t) (covSucc d) - sp t d)

/-- The 0/1 mask "step t is before length - 1", as the body computes it: the comparison bit widened to a word and
    converted to a float. -/
def maskK (len : BitVec 32) (t : Fin 199) : EReal :=
  FloatOps.sitofp (F := Ideal) .f32 ((IntOp.cmpi .slt (BitVec.ofNat 32 t.val) (IntOp.subi len 1#32)).setWidth 32)

/-- The number of terms averaged, as the body computes it: max(length - 1, 1) converted to a float, times the float 64. -/
def cntK (len : BitVec 32) : EReal :=
  FloatOps.mulf (F := Ideal) (FloatOps.sitofp (F := Ideal) .f32 (IntOp.maxsi (IntOp.subi len 1#32) 1#32)) (Ideal.ofBits .f32 0x42800000#32)

/-- One individual's term from its masked error sum S: S divided by the count when length > 1, else the literal 0. -/
def perInd (cnt : BitVec 32 → EReal) (len : BitVec 32) (S : EReal) : EReal :=
  Scalar.select (IntOp.cmpi .sgt len 1#32) (Ideal.div S (cnt len)) (Ideal.ofBits .f32 0x00000000#32)

/-- One individual's one-step-ahead term as the body computes it: per step the 64 squared errors summed, then
    masked, then summed over the 199 steps. -/
def stepRowK (cv : Fin 200 → Fin 65 → EReal) (sp : Fin 199 → Fin 64 → EReal) (len : BitVec 32) : EReal :=
  perInd cntK len (∑ t : Fin 199, (∑ d : Fin 64, sqErr cv sp t d) * maskK len t)

end Cert.RowTerms

end
-- ==== Proof.PayTheta.lean ====
/-
  The drift output of one grid point, read at an index of its (1, 8, 128) tile.

  The body takes the block of 32 rows laid flat (32 × 400), subtracts the row shifted by two positions from the row,
  squares, sums along each row, then sums the 32 row sums, and spreads the one number over the tile. So every entry of
  the tile is the sum over the block's 32 rows of the row's drift term.
-/
import proofs.«171033_j89902255440407_2_alg».proof.Proof.Gen.KernelIdeal.Skeleton
import Idealize.ShloMosaic.Lib.Pipeline.Value
import Idealize.ShloMosaic.Lib.ValueIdx
import Idealize.ShloMosaic.PureOps.Ideal.Laws
import proofs.«171033_j89902255440407_2_alg».proof.Proof.LibKeepdims
import proofs.«171033_j89902255440407_2_alg».proof.Proof.LibRank3
import proofs.«171033_j89902255440407_2_alg».proof.Proof.RowTerms

set_option maxRecDepth 16384

open scoped BigOperators

noncomputable section

namespace Cert.KernelIdeal.Pay

open Cert.KernelIdeal Cert.KernelIdeal.Gen
open Idealize.ShloMosaic Idealize.ShloMosaic.ValueIdx Cert.RowTerms

/-- One number kept as a 1 × 1 array, cast to 1 × 1 × 1 and spread over the (1, 8, 128) tile: every entry is that number. -/
theorem tile_apply (v : FVec Ideal S1x1 .f32) (y : S1x8x128.Idx) :
    broadcastTo S1x8x128 (shapeCast S1x1x1 v shapeCasts_S1x1_S1x1x1) broadcasts_S1x1x1_S1x8x128 y = v (ix2 0 0) := by
  refine (broadcastTo_apply _ broadcasts_S1x1x1_S1x8x128 y (ix3 0 0 0) (fun ax => ?_)).trans ?_
  · match ax with
    | ⟨0, _⟩ => rfl
    | ⟨1, _⟩ => rfl
    | ⟨2, _⟩ => rfl
  · exact Cert.LibRank3.shapeCast_a1_a11_apply v shapeCasts_S1x1_S1x1x1 0 0 0

/-- The sum of a column of 32 row totals, kept as a 1 × 1 array, read at its one entry. -/
theorem colsum_apply (w : FVec Ideal S32 .f32) :
    shapeCast S1x1 (multiReduction .add [0] S1 (shapeCast S32x1 w shapeCasts_S32_S32x1) 0x00000000#32 reduces_S32x1_S1 (.inl rfl) rfl)
        shapeCasts_S1_S1x1 (ix2 0 0)
      = ∑ r : Fin 32, w (ix1 r) := by
  refine (Cert.LibKeepdims.shapeCast_a_a1_apply _ shapeCasts_S1_S1x1 0 0).trans ?_
  refine (Ideal.multiReduction_add_single _ _ reduces_S32x1_S1 _ _ (ix1 0)).trans ?_
  refine Finset.sum_congr rfl fun (r : Fin 32) _ => ?_
  have el : reduces_S32x1_S1.lift (ix1 (0 : Fin 1)) r = ix2 r (0 : Fin 1) :=
    funext fun a => match a with | ⟨0, _⟩ => Fin.ext rfl | ⟨1, _⟩ => Fin.ext rfl
  rw [el]
  exact Cert.LibKeepdims.shapeCast_a_a1_apply w shapeCasts_S32_S32x1 r 0

/-- The drift output's tile at any of its entries: the block's 32 rows' drift terms, summed. -/
theorem theta_tile (x0 : Vec Ideal S32x400 .f32) (y : S1x8x128.Idx) :
    k0_pay2 (k0_pay5 x0) y = ∑ r : Fin 32, thetaRow (fun j => x0 (ix2 r j)) := by
  unfold k0_pay2
  refine (tile_apply _ y).trans ?_
  unfold k0_pay5
  refine (colsum_apply _).trans ?_
  refine Finset.sum_congr rfl fun (r : Fin 32) _ => ?_
  refine (Ideal.multiReduction_add_single _ _ reduces_S32x398_S32 _ _ (ix1 r)).trans ?_
  unfold thetaRow k0_pay4
  rw [shapeCast_self]
  refine Finset.sum_congr rfl fun (j : Fin 398) _ => ?_
  have el : reduces_S32x398_S32.lift (ix1 r) j = ix2 r j :=
    funext fun a => match a with | ⟨0, _⟩ => Fin.ext rfl | ⟨1, _⟩ => Fin.ext rfl
  rw [el]
  have e2 : extractStridedSlice S32x398 ![0, 0] x0 slices_S32x400_o0_0_S32x398 (ix2 r j) = x0 (ix2 r (lo j)) :=
    extractStridedSlice_apply ![0, 0] x0 slices_S32x400_o0_0_S32x398 (ix2 r j) (ix2 r (lo j)) (fun a => match a with
      | ⟨0, _⟩ => by show r.val = 0 + r.val; omega
      | ⟨1, _⟩ => by show j.val = 0 + j.val; omega)
  have e3 : extractStridedSlice S32x398 ![0, 2] x0 slices_S32x400_o0_2_S32x398 (ix2 r j) = x0 (ix2 r (hi j)) :=
    extractStridedSlice_apply ![0, 2] x0 slices_S32x400_o0_2_S32x398 (ix2 r j) (ix2 r (hi j)) (fun a => match a with
      | ⟨0, _⟩ => by show r.val = 0 + r.val; omega
      | ⟨1, _⟩ => by show j.val + 2 = 2 + j.val; omega)
  show (extractStridedSlice S32x398 ![0, 0] x0 slices_S32x400_o0_0_S32x398 (ix2 r j) - extractStridedSlice S32x398 ![0, 2] x0 slices_S32x400_o0_2_S32x398 (ix2 r j))
      * (extractStridedSlice S32x398 ![0, 0] x0 slices_S32x400_o0_0_S32x398 (ix2 r j) - extractStridedSlice S32x398 ![0, 2] x0 slices_S32x400_o0_2_S32x398 (ix2 r j)) = _
  rw [e2, e3]

end Cert.KernelIdeal.Pay

end
-- ==== Proof.PayGlobal.lean ====
/-
  The global-deviation output of one grid point, read at an index of its (1, 8, 128) tile.

  The body divides the block of 32 flat rows, position by position, by the tiled global parameters (one row of 400,
  the same for every row of the block), subtracts 1, squares, sums along each row, then sums the 32 row sums and
  spreads the number over the tile: every entry is the sum over the block's 32 rows of the row's global term.
-/
import proofs.«171033_j89902255440407_2_alg».proof.Proof.PayTheta

set_option maxRecDepth 16384

open scoped BigOperators

noncomputable section

namespace Cert.KernelIdeal.Pay

open Cert.KernelIdeal Cert.KernelIdeal.Gen
open Idealize.ShloMosaic Idealize.ShloMosaic.ValueIdx Cert.RowTerms

/-- The one row of tiled global parameters spread over the 32 rows of the block: at (r, j) it is the row at j. -/
theorem tiled_apply (x1 : FVec Ideal S1x400 .f32) (r : Fin 32) (j : Fin 400) :
    broadcastTo S32x400 x1 broadcasts_S1x400_S32x400 (ix2 r j) = x1 (ix2 (0 : Fin 1) j) :=
  broadcastTo_apply x1 broadcasts_S1x400_S32x400 (ix2 r j) (ix2 (0 : Fin 1) j) (fun a => match a with
    | ⟨0, _⟩ => rfl
    | ⟨1, _⟩ => rfl)

/-- The global-deviation output's tile at any of its entries: the block's 32 rows' global terms, summed. -/
theorem global_tile (x0 : Vec Ideal S32x400 .f32) (x1 : Vec Ideal S1x400 .f32) (y : S1x8x128.Idx) :
    k0_pay3 (k0_pay6 x0 x1) y
      = ∑ r : Fin 32, globalRow (Ideal.ofBits .f32 0x3F800000#32) (fun j => x0 (ix2 r j)) (fun j => x1 (ix2 (0 : Fin 1) j)) := by
  unfold k0_pay3
  refine (tile_apply _ y).trans ?_
  unfold k0_pay6
  refine (colsum_apply _).trans ?_
  refine Finset.sum_congr rfl fun (r : Fin 32) _ => ?_
  refine (Ideal.multiReduction_add_single _ _ reduces_S32x400_S32 _ _ (ix1 r)).trans ?_
  unfold globalRow k0_pay4
  rw [shapeCast_self, shapeCast_self]
  refine Finset.sum_congr rfl fun (j : Fin 400) _ => ?_
  have el : reduces_S32x400_S32.lift (ix1 r) j = ix2 r j :=
    funext fun a => match a with | ⟨0, _⟩ => Fin.ext rfl | ⟨1, _⟩ => Fin.ext rfl
  rw [el]
  show (Ideal.div (x0 (ix2 r j)) (broadcastTo S32x400 x1 broadcasts_S1x400_S32x400 (ix2 r j)) - Ideal.ofBits .f32 0x3F800000#32)
      * (Ideal.div (x0 (ix2 r j)) (broadcastTo S32x400 x1 broadcasts_S1x400_S32x400 (ix2 r j)) - Ideal.ofBits .f32 0x3F800000#32) = _
  rw [tiled_apply]

end Cert.KernelIdeal.Pay

end
-- ==== Proof.PayStep.lean ====
/-
  The one-step-ahead output of one grid point, read at an index of its (1, 8, 128) tile.

  For each of the block's 32 individuals the body takes the covariate trajectories from step 1 and column 1 on,
  subtracts the predictions, squares, sums over the 64 covariates, multiplies by the 0/1 mask "step < length - 1",
  sums over the 199 steps, divides by max(length - 1, 1) · 64 and keeps the quotient only when length > 1; it then sums
  the 32 individuals' terms and spreads the number over the tile.
-/
import proofs.«171033_j89902255440407_2_alg».proof.Proof.PayTheta

set_option maxRecDepth 16384

open scoped BigOperators

noncomputable section

namespace Cert.KernelIdeal.Pay

open Cert.KernelIdeal Cert.KernelIdeal.Gen
open Idealize.ShloMosaic Idealize.ShloMosaic.ValueIdx Cert.RowTerms

/-- The lengths' block, a column of 32 words kept with two unit axes, read at individual r. -/
theorem len_apply (x4 : Vec Ideal S32x1 .i32) (r : Fin 32) : k0_pay7 x4 (ix3 r (0 : Fin 1) (0 : Fin 1)) = x4 (ix2 r (0 : Fin 1)) := by
  unfold k0_pay7
  rw [shapeCast_self]
  exact Cert.LibRank3.shapeCast_a1_a11_apply x4 shapeCasts_S32x1_S32x1x1 r 0 0

/-- A per-individual word spread along the 199 steps: at (r, t, 0) it is the word of individual r. -/
theorem steps_apply (v : IVec S32x1x1 32) (r : Fin 32) (t : Fin 199) :
    broadcastTo S32x199x1 v broadcasts_S32x1x1_S32x199x1 (ix3 r t (0 : Fin 1)) = v (ix3 r (0 : Fin 1) (0 : Fin 1)) :=
  broadcastTo_apply v broadcasts_S32x1x1_S32x199x1 (ix3 r t (0 : Fin 1)) (ix3 r (0 : Fin 1) (0 : Fin 1)) (fun a => match a with
    | ⟨0, _⟩ => rfl
    | ⟨1, _⟩ => rfl
    | ⟨2, _⟩ => rfl)

/-- The masked per-step error sum of individual r at step t. -/
theorem pay8_apply (x2 : Vec Ideal S32x200x65 .f32) (x3 : Vec Ideal S32x199x64 .f32) (x4 : Vec Ideal S32x1 .i32) (r : Fin 32) (t : Fin 199) :
    k0_pay8 x2 x3 x4 (ix3 r t (0 : Fin 1))
      = (∑ d : Fin 64, sqErr (fun t d => x2 (ix3 r t d)) (fun t d => x3 (ix3 r t d)) t d) * maskK (x4 (ix2 r (0 : Fin 1))) t := by
  unfold k0_pay8
  refine (mulf_apply _ _ _).trans (congrArg₂ (· * ·) ?_ ?_)
  · refine (Cert.LibRank3.shapeCast_ab_ab1_apply _ shapeCasts_S32x199_S32x199x1 r t 0).trans ?_
    refine (Ideal.multiReduction_add_single _ _ reduces_S32x199x64_S32x199 _ _ (ix2 r t)).trans ?_
    refine Finset.sum_congr rfl fun (d : Fin 64) _ => ?_
    have el : reduces_S32x199x64_S32x199.lift (ix2 r t) d = ix3 r t d :=
      funext fun a => match a with | ⟨0, _⟩ => Fin.ext rfl | ⟨1, _⟩ => Fin.ext rfl | ⟨2, _⟩ => Fin.ext rfl
    rw [el]
    have es : extractStridedSlice S32x199x64 ![0, 1, 1] x2 slices_S32x200x65_o0_1_1_S32x199x64 (ix3 r t d) = x2 (ix3 r (stepSucc t) (covSucc d)) :=
      extractStridedSlice_apply ![0, 1, 1] x2 slices_S32x200x65_o0_1_1_S32x199x64 (ix3 r t d) (ix3 r (stepSucc t) (covSucc d)) (fun a => match a with
        | ⟨0, _⟩ => by show r.val = 0 + r.val; omega
        | ⟨1, _⟩ => by show t.val + 1 = 1 + t.val; omega
        | ⟨2, _⟩ => by show d.val + 1 = 1 + d.val; omega)
    show (extractStridedSlice S32x199x64 ![0, 1, 1] x2 slices_S32x200x65_o0_1_1_S32x199x64 (ix3 r t d) - x3 (ix3 r t d))
        * (extractStridedSlice S32x199x64 ![0, 1, 1] x2 slices_S32x200x65_o0_1_1_S32x199x64 (ix3 r t d) - x3 (ix3 r t d)) = _
    rw [es]
    rfl
  · show FloatOps.sitofp (F := Ideal) .f32 ((IntOp.cmpi .slt (iota .tc S32x199x1 32 [1] iota_S32x199x1_d1_w32 (ix3 r t (0 : Fin 1)))
        (broadcastTo S32x199x1 (subi (k0_pay7 x4) (broadcast S32x1x1 1#32)) broadcasts_S32x1x1_S32x199x1 (ix3 r t (0 : Fin 1)))).setWidth 32) = _
    rw [iota_single_apply, steps_apply]
    show FloatOps.sitofp (F := Ideal) .f32 ((IntOp.cmpi .slt (BitVec.ofNat 32 t.val) (IntOp.subi (k0_pay7 x4 (ix3 r (0 : Fin 1) (0 : Fin 1))) 1#32)).setWidth 32) = _
    rw [len_apply]
    rfl

/-- The one-step-ahead output's tile at any of its entries: the block's 32 individuals' terms, summed. -/
theorem step_tile (x2 : Vec Ideal S32x200x65 .f32) (x3 : Vec Ideal S32x199x64 .f32) (x4 : Vec Ideal S32x1 .i32) (y : S1x8x128.Idx) :
    k0_pay1 (k0_pay7 x4) (k0_pay8 x2 x3 x4) y
      = ∑ r : Fin 32, stepRowK (fun t d => x2 (ix3 r t d)) (fun t d => x3 (ix3 r t d)) (x4 (ix2 r (0 : Fin 1))) := by
  unfold k0_pay1
  rw [shapeCast_self]
  refine (tile_apply _ y).trans ?_
  refine (Ideal.multiReduction_add_single _ _ reduces_S32x1x1_S1x1 _ _ (ix2 0 0)).trans ?_
  refine Finset.sum_congr rfl fun (r : Fin 32) _ => ?_
  have el : reduces_S32x1x1_S1x1.lift (ix2 (0 : Fin 1) (0 : Fin 1)) r = ix3 r (0 : Fin 1) (0 : Fin 1) :=
    funext fun a => match a with | ⟨0, _⟩ => Fin.ext rfl | ⟨1, _⟩ => Fin.ext rfl | ⟨2, _⟩ => Fin.ext rfl
  rw [el]
  show perInd cntK (k0_pay7 x4 (ix3 r (0 : Fin 1) (0 : Fin 1)))
      (shapeCast S32x1x1 (multiReduction .add [1] S32x1 (k0_pay8 x2 x3 x4) 0x00000000#32 reduces_S32x199x1_S32x1 (.inl rfl) rfl)
        shapeCasts_S32x1_S32x1x1 (ix3 r (0 : Fin 1) (0 : Fin 1))) = _
  rw [len_apply]
  unfold stepRowK
  refine congrArg (perInd cntK (x4 (ix2 r (0 : Fin 1)))) ?_
  refine (Cert.LibRank3.shapeCast_a1_a11_apply _ shapeCasts_S32x1_S32x1x1 r 0 0).trans ?_
  refine (Ideal.multiReduction_add_single _ _ reduces_S32x199x1_S32x1 _ _ (ix2 r 0)).trans ?_
  refine Finset.sum_congr rfl fun (t : Fin 199) _ => ?_
  have el2 : reduces_S32x199x1_S32x1.lift (ix2 r (0 : Fin 1)) t = ix3 r t (0 : Fin 1) :=
    funext fun a => match a with | ⟨0, _⟩ => Fin.ext rfl | ⟨1, _⟩ => Fin.ext rfl | ⟨2, _⟩ => Fin.ext rfl
  rw [el2]
  exact pay8_apply x2 x3 x4 r t

end Cert.KernelIdeal.Pay

end
-- ==== Proof.KernelArrays.lean ====
/-
  The three output arrays after the run, each as one function of the arrays the region finds.

  The grid has 128 points; point t stages rows 32t … 32t + 31 of every per-individual input (the flat parameters, the
  covariate trajectories, the one-step-ahead predictions, the lengths) and the whole tiled global parameters, and
  writes tile t of each of the three (128, 8, 128) outputs. Each tile holds one number in all its entries: the sum over
  the block's 32 rows of the row's term. So entry (t, ·, ·) of an output array is the sum of the 32 row terms of block t.
-/
import proofs.«171033_j89902255440407_2_alg».proof.Proof.Gen.KernelIdeal.Frame
import Idealize.ShloMosaic.Lib.StableHlo.Run
import Idealize.ShloMosaic.Lib.Pipeline.Value
import Idealize.ShloMosaic.PureOps.Ideal.Laws
import Idealize.ShloMosaic.Lib.ValueIdx
import proofs.«171033_j89902255440407_2_alg».proof.Proof.LibSumBlocks
import proofs.«171033_j89902255440407_2_alg».proof.Proof.PayTheta
import proofs.«171033_j89902255440407_2_alg».proof.Proof.PayGlobal
import proofs.«171033_j89902255440407_2_alg».proof.Proof.PayStep

set_option maxRecDepth 16384

open scoped BigOperators

noncomputable section

namespace Cert.KernelIdeal.Arrays

open Cert.KernelIdeal Cert.KernelIdeal.Gen
open Idealize.ShloMosaic Idealize.ShloMosaic.TcCoe Idealize.SL.Sem Idealize.ShloMosaic.StableHlo Idealize.ShloMosaic.ValueIdx
open Cert.RowTerms Cert.LibSumBlocks

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Row r of block p of the batch of 4096 = 128 blocks of 32. -/
def row (p : Fin 128) (r : Fin 32) : Fin 4096 := ⟨32 * p.val + r.val, blk_lt p.isLt r.isLt⟩

/-- The printed index maps, decided over the grid: every per-individual window and every output window sits at block t
    on its first axis and at block 0 on the others; the tiled global parameters stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0
    ∧ t.val < 128 :=
  (by decide +kernel : ∀ t : Fin grid0.N, _)

/-- The output windows' index facts, one window at a time. -/
theorem facts_out5 (t : Fin cfg0.N) : win0_5.index t (0 : Fin 3) = t.val ∧ win0_5.index t (1 : Fin 3) = 0 ∧ win0_5.index t (2 : Fin 3) = 0 ∧ t.val < 128 := by
  obtain ⟨-, -, -, -, -, -, -, -, -, -, -, -, a, b, c, -, -, -, -, -, -, d⟩ := idx_facts t
  exact ⟨a, b, c, d⟩
theorem facts_out6 (t : Fin cfg0.N) : win0_6.index t (0 : Fin 3) = t.val ∧ win0_6.index t (1 : Fin 3) = 0 ∧ win0_6.index t (2 : Fin 3) = 0 ∧ t.val < 128 := by
  obtain ⟨-, -, -, -, -, -, -, -, -, -, -, -, -, -, -, a, b, c, -, -, -, d⟩ := idx_facts t
  exact ⟨a, b, c, d⟩
theorem facts_out7 (t : Fin cfg0.N) : win0_7.index t (0 : Fin 3) = t.val ∧ win0_7.index t (1 : Fin 3) = 0 ∧ win0_7.index t (2 : Fin 3) = 0 ∧ t.val < 128 := by
  obtain ⟨-, -, -, -, -, -, -, -, -, -, -, -, -, -, -, -, -, -, a, b, c, d⟩ := idx_facts t
  exact ⟨a, b, c, d⟩
/-- The input windows' index facts. -/
theorem facts_in (t : Fin cfg0.N) : win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 := by
  obtain ⟨a0, a1, b0, b1, c0, c1, c2, d0, d1, d2, e0, e1, -⟩ := idx_facts t
  exact ⟨a0, a1, b0, b1, c0, c1, c2, d0, d1, d2, e0, e1⟩

/-! ## The drift output (window 6) -/

/-- Entry i of the drift output: the drift terms of the 32 rows of block i₀, summed. -/
def G6 (c : Dev nD) : S128x8x128.Idx → EReal := fun i =>
  ∑ r : Fin 32, thetaRow (fun j => (V m c main_v0 : S4096x400.Idx → EReal) (ix2 (row (i 0) r) j))

/-- What point t writes back to the drift output is tile t of `G6`. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz3]
  simp only [View.ld_unit_zero (S := S32x400) hz2]
  obtain ⟨e00, e01, -, -, -, -, -, -, -, -, -, -⟩ := facts_in t
  obtain ⟨E0, -, -, -⟩ := facts_out6 t
  funext y
  refine (Pay.theta_tile (iblk m c 0 t) y).trans ?_
  show _ = G6 m c (((cfg0.win 6).blk t).view.emb y)
  unfold G6
  refine Finset.sum_congr rfl fun (r : Fin 32) _ => ?_
  refine congrArg thetaRow (funext fun (j : Fin 400) => ?_)
  ·
    show V m c main_v0 (((cfg0.win 0).blk t).view.emb (ix2 r j)) = V m c main_v0 (ix2 (row ((((cfg0.win 6).blk t).view.emb y) 0) r) j)
    refine congrArg (V m c main_v0) (funext fun a => Fin.ext ?_)
    match a with
    | ⟨0, _⟩ =>
      show win0_0.index t (0 : Fin 2) * 32 + 1 * r.val = 32 * (win0_6.index t (0 : Fin 3) * 1 + 1 * (y 0).val) + r.val
      have hy : (y 0).val < 1 := (y 0).isLt
      omega
    | ⟨1, _⟩ =>
      show win0_0.index t (1 : Fin 2) * 400 + 1 * j.val = j.val
      omega

/-- An index of the drift output is in point t's tile iff each coordinate is in the tile's range on its axis. -/
theorem mem_blk6 (t : Fin cfg0.N) (i : S128x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v6_1).slice (win0_6.rect t)).set ↔ _
  rw [View.set_slice_whole, Rect.mem_set_unit]
  exact Iff.rfl

/-- Every index of the drift output is in some point's tile: the point its first coordinate names. -/
theorem cover6 (i : S128x8x128.Idx) : ∃ t : Fin cfg0.N, (cfg0.win 6).flush t = true ∧ i ∈ ((cfg0.win 6).blk t).view.set := by
  have hi0 : (i 0).val < 128 := (i 0).isLt
  have hi1 : (i 1).val < 8 := (i 1).isLt
  have hi2 : (i 2).val < 128 := (i 2).isLt
  refine ⟨⟨(i 0).val, hi0⟩, flush0_6 _, ?_⟩
  rw [mem_blk6]
  obtain ⟨E0, E1, E2, -⟩ := facts_out6 ⟨(i 0).val, hi0⟩
  intro a
  match a with
  | ⟨0, _⟩ =>
    show win0_6.index ⟨(i 0).val, hi0⟩ (0 : Fin 3) * 1 ≤ (i 0).val ∧ (i 0).val < win0_6.index ⟨(i 0).val, hi0⟩ (0 : Fin 3) * 1 + 1
    rw [E0]; show (i 0).val * 1 ≤ (i 0).val ∧ (i 0).val < (i 0).val * 1 + 1; omega
  | ⟨1, _⟩ =>
    show win0_6.index ⟨(i 0).val, hi0⟩ (1 : Fin 3) * 8 ≤ (i 1).val ∧ (i 1).val < win0_6.index ⟨(i 0).val, hi0⟩ (1 : Fin 3) * 8 + 8
    rw [E1]; omega
  | ⟨2, _⟩ =>
    show win0_6.index ⟨(i 0).val, hi0⟩ (2 : Fin 3) * 128 ≤ (i 2).val ∧ (i 2).val < win0_6.index ⟨(i 0).val, hi0⟩ (2 : Fin 3) * 128 + 128
    rw [E2]; omega

/-- The drift output after the run. -/
theorem final6 (c : Dev nD) : (dats m 0 c).arrAt 6 cfg0.N = G6 m c :=
  (dats m 0 c).arrAt_eq_of_cover 6 (G6 m c) (fun t _ => flushed6_eq m c t) cover6

/-! ## The global-deviation output (window 7) -/

/-- Entry i of the global-deviation output: the global terms of the 32 rows of block i₀, summed. -/
def G7 (c : Dev nD) : S128x8x128.Idx → EReal := fun i =>
  ∑ r : Fin 32, globalRow (Ideal.ofBits .f32 0x3F800000#32)
    (fun j => (V m c main_v0 : S4096x400.Idx → EReal) (ix2 (row (i 0) r) j))
    (fun j => (V m c main_v4 : S1x400.Idx → EReal) (ix2 (0 : Fin 1) j))

/-- What point t writes back to the global-deviation output is tile t of `G7`. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz3]
  simp only [View.ld_unit_zero (S := S32x400) hz2, View.ld_unit_zero (S := S1x400) hz2]
  obtain ⟨e00, e01, e10, e11, -, -, -, -, -, -, -, -⟩ := facts_in t
  obtain ⟨E0, -, -, -⟩ := facts_out7 t
  funext y
  refine (Pay.global_tile (iblk m c 0 t) (iblk m c 1 t) y).trans ?_
  show _ = G7 m c (((cfg0.win 7).blk t).view.emb y)
  unfold G7
  refine Finset.sum_congr rfl fun (r : Fin 32) _ => ?_
  refine congrArg₂ (globalRow _) (funext fun (j : Fin 400) => ?_) (funext fun (j : Fin 400) => ?_)
  ·
    show V m c main_v0 (((cfg0.win 0).blk t).view.emb (ix2 r j)) = V m c main_v0 (ix2 (row ((((cfg0.win 7).blk t).view.emb y) 0) r) j)
    refine congrArg (V m c main_v0) (funext fun a => Fin.ext ?_)
    match a with
    | ⟨0, _⟩ =>
      show win0_0.index t (0 : Fin 2) * 32 + 1 * r.val = 32 * (win0_7.index t (0 : Fin 3) * 1 + 1 * (y 0).val) + r.val
      have hy : (y 0).val < 1 := (y 0).isLt
      omega
    | ⟨1, _⟩ =>
      show win0_0.index t (1 : Fin 2) * 400 + 1 * j.val = j.val
      omega
  · show V m c main_v4 (((cfg0.win 1).blk t).view.emb (ix2 (0 : Fin 1) j)) = V m c main_v4 (ix2 (0 : Fin 1) j)
    refine congrArg (V m c main_v4) (funext fun a => Fin.ext ?_)
    match a with
    | ⟨0, _⟩ =>
      show win0_1.index t (0 : Fin 2) * 1 + 1 * 0 = 0
      omega
    | ⟨1, _⟩ =>
      show win0_1.index t (1 : Fin 2) * 400 + 1 * j.val = j.val
      omega

/-- An index of the global-deviation output is in point t's tile iff each coordinate is in the tile's range on its axis. -/
theorem mem_blk7 (t : Fin cfg0.N) (i : S128x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v6_2).slice (win0_7.rect t)).set ↔ _
  rw [View.set_slice_whole, Rect.mem_set_unit]
  exact Iff.rfl

/-- Every index of the global-deviation output is in some point's tile: the point its first coordinate names. -/
theorem cover7 (i : S128x8x128.Idx) : ∃ t : Fin cfg0.N, (cfg0.win 7).flush t = true ∧ i ∈ ((cfg0.win 7).blk t).view.set := by
  have hi0 : (i 0).val < 128 := (i 0).isLt
  have hi1 : (i 1).val < 8 := (i 1).isLt
  have hi2 : (i 2).val < 128 := (i 2).isLt
  refine ⟨⟨(i 0).val, hi0⟩, flush0_7 _, ?_⟩
  rw [mem_blk7]
  obtain ⟨E0, E1, E2, -⟩ := facts_out7 ⟨(i 0).val, hi0⟩
  intro a
  match a with
  | ⟨0, _⟩ =>
    show win0_7.index ⟨(i 0).val, hi0⟩ (0 : Fin 3) * 1 ≤ (i 0).val ∧ (i 0).val < win0_7.index ⟨(i 0).val, hi0⟩ (0 : Fin 3) * 1 + 1
    rw [E0]; show (i 0).val * 1 ≤ (i 0).val ∧ (i 0).val < (i 0).val * 1 + 1; omega
  | ⟨1, _⟩ =>
    show win0_7.index ⟨(i 0).val, hi0⟩ (1 : Fin 3) * 8 ≤ (i 1).val ∧ (i 1).val < win0_7.index ⟨(i 0).val, hi0⟩ (1 : Fin 3) * 8 + 8
    rw [E1]; omega
  | ⟨2, _⟩ =>
    show win0_7.index ⟨(i 0).val, hi0⟩ (2 : Fin 3) * 128 ≤ (i 2).val ∧ (i 2).val < win0_7.index ⟨(i 0).val, hi0⟩ (2 : Fin 3) * 128 + 128
    rw [E2]; omega

/-- The global-deviation output after the run. -/
theorem final7 (c : Dev nD) : (dats m 0 c).arrAt 7 cfg0.N = G7 m c :=
  (dats m 0 c).arrAt_eq_of_cover 7 (G7 m c) (fun t _ => flushed7_eq m c t) cover7

/-! ## The one-step-ahead output (window 5) -/

/-- Entry i of the one-step-ahead output: the terms of the 32 individuals of block i₀, summed. -/
def G5 (c : Dev nD) : S128x8x128.Idx → EReal := fun i =>
  ∑ r : Fin 32, stepRowK
    (fun t d => (V m c main_arg4 : S4096x200x65.Idx → EReal) (ix3 (row (i 0) r) t d))
    (fun t d => (V m c main_arg3 : S4096x199x64.Idx → EReal) (ix3 (row (i 0) r) t d))
    ((V m c main_v5 : S4096x1.Idx → BitVec 32) (ix2 (row (i 0) r) (0 : Fin 1)))

theorem stepRowK_congr {cv cv' : Fin 200 → Fin 65 → EReal} {sp sp' : Fin 199 → Fin 64 → EReal} {len len' : BitVec 32}
    (h1 : cv = cv') (h2 : sp = sp') (h3 : len = len') : stepRowK cv sp len = stepRowK cv' sp' len' := by
  subst h1 h2 h3; rfl

/-- What point t writes back to the one-step-ahead output is tile t of `G5`. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz3]
  simp only [View.ld_unit_zero (S := S32x200x65) hz3, View.ld_unit_zero (S := S32x199x64) hz3, View.ld_unit_zero (S := S32x1) hz2]
  obtain ⟨-, -, -, -, e20, e21, e22, e30, e31, e32, e40, e41⟩ := facts_in t
  obtain ⟨E0, -, -, -⟩ := facts_out5 t
  funext y
  refine (Pay.step_tile (iblk m c 2 t) (iblk m c 3 t) (iblk m c 4 t) y).trans ?_
  show _ = G5 m c (((cfg0.win 5).blk t).view.emb y)
  unfold G5
  refine Finset.sum_congr rfl fun (r : Fin 32) _ => ?_
  have hy : (y 0).val < 1 := (y 0).isLt
  refine stepRowK_congr (funext fun (s : Fin 200) => funext fun (d : Fin 65) => ?_) (funext fun (s : Fin 199) => funext fun (d : Fin 64) => ?_) ?_
  · show V m c main_arg4 (((cfg0.win 2).blk t).view.emb (ix3 r s d)) = V m c main_arg4 (ix3 (row ((((cfg0.win 5).blk t).view.emb y) 0) r) s d)
    refine congrArg (V m c main_arg4) (funext fun a => Fin.ext ?_)
    match a with
    | ⟨0, _⟩ =>
      show win0_2.index t (0 : Fin 3) * 32 + 1 * r.val = 32 * (win0_5.index t (0 : Fin 3) * 1 + 1 * (y 0).val) + r.val
      omega
    | ⟨1, _⟩ =>
      show win0_2.index t (1 : Fin 3) * 200 + 1 * s.val = s.val
      omega
    | ⟨2, _⟩ =>
      show win0_2.index t (2 : Fin 3) * 65 + 1 * d.val = d.val
      omega
  · show V m c main_arg3 (((cfg0.win 3).blk t).view.emb (ix3 r s d)) = V m c main_arg3 (ix3 (row ((((cfg0.win 5).blk t).view.emb y) 0) r) s d)
    refine congrArg (V m c main_arg3) (funext fun a => Fin.ext ?_)
    match a with
    | ⟨0, _⟩ =>
      show win0_3.index t (0 : Fin 3) * 32 + 1 * r.val = 32 * (win0_5.index t (0 : Fin 3) * 1 + 1 * (y 0).val) + r.val
      omega
    | ⟨1, _⟩ =>
      show win0_3.index t (1 : Fin 3) * 199 + 1 * s.val = s.val
      omega
    | ⟨2, _⟩ =>
      show win0_3.index t (2 : Fin 3) * 64 + 1 * d.val = d.val
      omega
  · show V m c main_v5 (((cfg0.win 4).blk t).view.emb (ix2 r (0 : Fin 1))) = V m c main_v5 (ix2 (row ((((cfg0.win 5).blk t).view.emb y) 0) r) (0 : Fin 1))
    refine congrArg (V m c main_v5) (funext fun a => Fin.ext ?_)
    match a with
    | ⟨0, _⟩ =>
      show win0_4.index t (0 : Fin 2) * 32 + 1 * r.val = 32 * (win0_5.index t (0 : Fin 3) * 1 + 1 * (y 0).val) + r.val
      omega
    | ⟨1, _⟩ =>
      show win0_4.index t (1 : Fin 2) * 1 + 1 * 0 = 0
      omega

/-- An index of the one-step-ahead output is in point t's tile iff each coordinate is in the tile's range on its axis. -/
theorem mem_blk5 (t : Fin cfg0.N) (i : S128x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v6_0).slice (win0_5.rect t)).set ↔ _
  rw [View.set_slice_whole, Rect.mem_set_unit]
  exact Iff.rfl

/-- Every index of the one-step-ahead output is in some point's tile: the point its first coordinate names. -/
theorem cover5 (i : S128x8x128.Idx) : ∃ t : Fin cfg0.N, (cfg0.win 5).flush t = true ∧ i ∈ ((cfg0.win 5).blk t).view.set := by
  have hi0 : (i 0).val < 128 := (i 0).isLt
  have hi1 : (i 1).val < 8 := (i 1).isLt
  have hi2 : (i 2).val < 128 := (i 2).isLt
  refine ⟨⟨(i 0).val, hi0⟩, flush0_5 _, ?_⟩
  rw [mem_blk5]
  obtain ⟨E0, E1, E2, -⟩ := facts_out5 ⟨(i 0).val, hi0⟩
  intro a
  match a with
  | ⟨0, _⟩ =>
    show win0_5.index ⟨(i 0).val, hi0⟩ (0 : Fin 3) * 1 ≤ (i 0).val ∧ (i 0).val < win0_5.index ⟨(i 0).val, hi0⟩ (0 : Fin 3) * 1 + 1
    rw [E0]; show (i 0).val * 1 ≤ (i 0).val ∧ (i 0).val < (i 0).val * 1 + 1; omega
  | ⟨1, _⟩ =>
    show win0_5.index ⟨(i 0).val, hi0⟩ (1 : Fin 3) * 8 ≤ (i 1).val ∧ (i 1).val < win0_5.index ⟨(i 0).val, hi0⟩ (1 : Fin 3) * 8 + 8
    rw [E1]; omega
  | ⟨2, _⟩ =>
    show win0_5.index ⟨(i 0).val, hi0⟩ (2 : Fin 3) * 128 ≤ (i 2).val ∧ (i 2).val < win0_5.index ⟨(i 0).val, hi0⟩ (2 : Fin 3) * 128 + 128
    rw [E2]; omega

/-- The one-step-ahead output after the run. -/
theorem final5 (c : Dev nD) : (dats m 0 c).arrAt 5 cfg0.N = G5 m c :=
  (dats m 0 c).arrAt_eq_of_cover 5 (G5 m c) (fun t _ => flushed5_eq m c t) cover5

end Cert.KernelIdeal.Arrays

end
-- ==== Proof.LibIdxSums.lean ====
/-
  Sums over the index set of a rank-1 or rank-3 array, taken coordinate by coordinate.

  An index of an array of shape [n] is its one coordinate, and an index of an array of shape [n0, n1, n2] is its three
  coordinates; so a sum over the index set is the sum over the coordinate, or the iterated sum over the three
  coordinates. Only commutativity and associativity of the addition enter.
-/
import Idealize.ShloMosaic.Lib.ValueIdx

open scoped BigOperators

namespace Cert.LibIdxSums

open Idealize.ShloMosaic Idealize.ShloMosaic.ValueIdx

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the iterated sum over its three coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.Combine.lean ====
/-
  The scalar both programs end with: 1 · (a / 4096) + 0.1 · (b / 1630208) + 0.01 · (c / 1638400), over the three totals
  a (one-step-ahead), b (drift), c (global deviation), every constant the same float literal in both programs.
-/
import Idealize.ShloMosaic.PureOps.Ideal.Laws

noncomputable section

namespace Cert.Combine

open Idealize.ShloMosaic

/-- The shape of a scalar. -/
abbrev S0 : Shape := ⟨0, ![]⟩

/-- The weighted sum of the three means, as both programs write it. -/
def combine (a b c : FVec Ideal S0 .f32) : FVec Ideal S0 .f32 :=
  addf
    (addf (mulf (constant S0 .f32 0x3F800000#32) (Host.divf a (constant S0 .f32 0x45800000#32)))
      (mulf (constant S0 .f32 0x3DCCCCCD#32) (Host.divf b (constant S0 .f32 0x49C70000#32))))
    (mulf (constant S0 .f32 0x3C23D70A#32) (Host.divf c (constant S0 .f32 0x49C80000#32)))

end Cert.Combine

end
-- ==== Proof.KernelResult.lean ====
/-
  The kernel's result as a function of its arguments.

  Before the region the flat parameters are the (4096, 200, 2) parameters re-read row-major as (4096, 400), the tiled
  global parameters are the two global parameters repeated 200 times along a row of 400, and the lengths are kept as
  a column. After the region each output array is read at (t, 0, 0) for the 128 tiles t and summed; a sum over the 128
  tiles of the sums over each tile's 32 rows is the sum over all 4096 rows.
-/
import proofs.«171033_j89902255440407_2_alg».proof.Proof.KernelArrays
import proofs.«171033_j89902255440407_2_alg».proof.Proof.LibIdxSums
import proofs.«171033_j89902255440407_2_alg».proof.Proof.LibBroadcastInDim
import proofs.«171033_j89902255440407_2_alg».proof.Proof.Combine

set_option maxRecDepth 16384

open scoped BigOperators

noncomputable section

namespace Cert.KernelIdeal.Result

open Cert.KernelIdeal Cert.KernelIdeal.Gen Cert.KernelIdeal.Arrays
open Idealize.ShloMosaic Idealize.ShloMosaic.TcCoe Idealize.SL.Sem Idealize.ShloMosaic.StableHlo Idealize.ShloMosaic.ValueIdx
open Cert.RowTerms Cert.LibSumBlocks Cert.LibIdxSums Cert.Combine

variable (m : (ℓ : Loc nD τ sig) → Buf (Elt Ideal) ℓ) (ρ : Dev nD → PrngReg)

/-! ## The arrays the host operations before the region write -/

theorem V_v0 (c : Dev nD) : (V m c main_v0 : S4096x400.Idx → EReal)
    = shapeCast S4096x400 (m ((c : Thread nD τ).loc main_arg1)) shapeCasts_S4096x200x2_S4096x400 := by
  show StableHlo.after hostOps0 (fun b => m (c, b)) (Proc.devRef .tc main_v0) = _
  after_results
  rfl

theorem V_v4 (c : Dev nD) : (V m c main_v4 : S1x400.Idx → EReal)
    = shapeCast S1x400 (shapeCast S400 (broadcastInDim S200x2 ![0, 1] bcast_S1x2_S200x2_0_1
        (shapeCast S1x2 (m ((c : Thread nD τ).loc main_arg0)) shapeCasts_S2_S1x2)) shapeCasts_S200x2_S400) shapeCasts_S400_S1x400 := by
  show StableHlo.after hostOps0 (fun b => m (c, b)) (Proc.devRef .tc main_v4) = _
  after_results
  rfl

theorem V_v5 (c : Dev nD) : (V m c main_v5 : S4096x1.Idx → BitVec 32)
    = shapeCast S4096x1 (m ((c : Thread nD τ).loc main_arg5)) shapeCasts_S4096_S4096x1 := by
  show StableHlo.after hostOps0 (fun b => m (c, b)) (Proc.devRef .tc main_v5) = _
  after_results
  rfl

/-! ## The host operations after the region -/

/-- One output array's total as the tail takes it: its entries (t, 0, 0) over the 128 tiles, summed from the literal 0. -/
def tot (A : FVec Ideal S128x8x128 .f32) : FVec Ideal S_ .f32 :=
  Host.reduceAdd (shapeCast S128 (extractStridedSlice S128x1x1 ![0, 0, 0] A slices_S128x8x128_S128x1x1_0_0_0) shapeCasts_S128x1x1_S128)
    (constant S_ .f32 0x00000000#32) reducesTo_S128_S_d0 h_S_

/-- The total at its one index: the literal 0 plus the sum over the tiles of the array at (t, 0, 0). -/
theorem tot_apply (A : FVec Ideal S128x8x128 .f32) (i : S_.Idx) :
    tot A i = Ideal.ofBits .f32 0x00000000#32 + ∑ p : Fin 128, A (ix3 p (0 : Fin 8) (0 : Fin 128)) := by
  unfold tot
  simp only [Host.reduceAdd, Ideal.hostReduceAdd_def]
  refine (Ideal.hostReduceAdd_total reducesTo_S128_S_d0 (fun b => b.elim0) _ _ i).trans ?_
  refine congrArg₂ (· + ·) rfl ?_
  rw [sum_idx1]
  refine Finset.sum_congr rfl fun (p : Fin 128) _ => ?_
  refine (shapeCast_apply _ shapeCasts_S128x1x1_S128 (ix1 p) (ix3 p (0 : Fin 1) (0 : Fin 1)) ?_).trans ?_
  · rw [Shape.rowMajor_val_three, Shape.rowMajor_val_one]
    show (p.val * 1 + 0) * 1 + 0 = p.val
    omega
  · exact extractStridedSlice_apply ![0, 0, 0] A slices_S128x8x128_S128x1x1_0_0_0 (ix3 p (0 : Fin 1) (0 : Fin 1)) (ix3 p (0 : Fin 8) (0 : Fin 128))
      (fun a => match a with
        | ⟨0, _⟩ => by show p.val = 0 + p.val; omega
        | ⟨1, _⟩ => by show 0 = 0 + 0; omega
        | ⟨2, _⟩ => by show 0 = 0 + 0; omega)

set_option maxHeartbeats 4000000 in
/-- @main's result after the tail, over the three output arrays the region leaves. -/
theorem tail_eq (c : Dev nD) : Pipeline.afterTail₀ cfgs (dats m) 0 (V0 m) [hostOps1] c main_v23
    = combine (tot (G5 m c)) (tot (G6 m c)) (tot (G7 m c)) := by
  unfold Pipeline.afterTail₀
  show StableHlo.after hostOps1 _ (Proc.devRef .tc main_v23) = _
  after_results
  have e5 : Pipeline.withArrays (cfgs 0).spec c (V0 m c) (fun w => (dats m 0 c).arrAt w (cfgs 0).N) (Proc.devRef .tc main_v6_0) = G5 m c :=
    (Pipeline.withArrays_arr spec0 launch0.win.arr_inj c _ _ 5).trans (final5 m c)
  have e6 : Pipeline.withArrays (cfgs 0).spec c (V0 m c) (fun w => (dats m 0 c).arrAt w (cfgs 0).N) (Proc.devRef .tc main_v6_1) = G6 m c :=
    (Pipeline.withArrays_arr spec0 launch0.win.arr_inj c _ _ 6).trans (final6 m c)
  have e7 : Pipeline.withArrays (cfgs 0).spec c (V0 m c) (fun w => (dats m 0 c).arrAt w (cfgs 0).N) (Proc.devRef .tc main_v6_2) = G7 m c :=
    (Pipeline.withArrays_arr spec0 launch0.win.arr_inj c _ _ 7).trans (final7 m c)
  rw [e5, e6, e7]
  rfl

/-- THE KERNEL'S RUN: every weakly fair execution ends with @main's result at the weighted sum of the three totals and
    the arguments unchanged. -/
theorem run : θ_run defs (onTc (τ := τ) (main (F := Ideal))) ⟨m, fun _ => 0, ρ⟩ (fun r => ∀ c : Dev nD,
      r.2.mem ((c.tc : Thread nD τ).loc main_v23) = combine (tot (G5 m c)) (tot (G6 m c)) (tot (G7 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c)⟩)
    (run_main m ρ)

end Cert.KernelIdeal.Result

end
-- ==== Proof.RowBridge.lean ====
/-
  The laws that join the kernel's per-row quantities to the reference's.

  * The drift and global terms of a row laid flat are sums over 398 or 400 positions; position 2t + p is step t's
    parameter p, so each is the sum over steps and parameters — a regrouping of a finite sum, which needs only
    commutativity and associativity of addition, hence holds of extended reals with their infinities.
  * The masked error sum: the kernel multiplies each step's sum over the 64 covariates by the 0/1 mask, the reference
    multiplies every covariate's term by it. The mask is 0 or 1, and on the extended reals x · 0 = 0 and x · 1 = x for
    every x, so the two agree without any finiteness.
  * The count: the kernel converts max(length - 1, 1) to a float and multiplies by the float 64; the reference multiplies
    the 32-bit words by 64 and converts. For 1 < length ≤ 200 the word product does not wrap (it is at most 199 · 64), so
    both are (length - 1) · 64; for length ≤ 1 neither count is used (the term is the literal 0).
-/
import proofs.«171033_j89902255440407_2_alg».proof.Proof.RowTerms
import proofs.«171033_j89902255440407_2_alg».proof.Proof.LibSumBlocks
import Idealize.ShloMosaic.Lib.Affine

open scoped BigOperators

noncomputable section

namespace Cert.RowBridge

open Idealize.ShloMosaic Cert.RowTerms Cert.LibSumBlocks

/-- Step t's parameter p in the flat row. -/
def flatPos (t : Fin 200) (p : Fin 2) : Fin 400 := ⟨2 * t.val + p.val, blk_lt t.isLt p.isLt⟩
/-- Step t of the first 199, as a step of the 200. -/
def stepPrev (t : Fin 199) : Fin 200 := ⟨t.val, Nat.lt_of_lt_of_le t.isLt (by decide)⟩

/-- The drift term of a flat row is the sum over the 199 consecutive pairs of steps and the 2 parameters. -/
theorem thetaRow_steps (f : Fin 400 → EReal) (g : Fin 200 → Fin 2 → EReal) (hfg : ∀ t p, f (flatPos t p) = g t p) :
    thetaRow f = ∑ t : Fin 199, ∑ p : Fin 2, (g (stepPrev t) p - g (stepSucc t) p) * (g (stepPrev t) p - g (stepSucc t) p) := by
  unfold thetaRow
  refine (sum_fin_blocks 199 2 (fun j : Fin 398 => (f (lo j) - f (hi j)) * (f (lo j) - f (hi j)))).trans ?_
  refine Finset.sum_congr rfl fun t _ => Finset.sum_congr rfl fun p _ => ?_
  have e1 : lo ⟨2 * t.val + p.val, blk_lt t.isLt p.isLt⟩ = flatPos (stepPrev t) p := Fin.ext rfl
  have e2 : hi ⟨2 * t.val + p.val, blk_lt t.isLt p.isLt⟩ = flatPos (stepSucc t) p :=
    Fin.ext (by show 2 * t.val + p.val + 2 = 2 * (t.val + 1) + p.val; omega)
  show (f (lo ⟨2 * t.val + p.val, blk_lt t.isLt p.isLt⟩) - f (hi ⟨2 * t.val + p.val, blk_lt t.isLt p.isLt⟩))
      * (f (lo ⟨2 * t.val + p.val, blk_lt t.isLt p.isLt⟩) - f (hi ⟨2 * t.val + p.val, blk_lt t.isLt p.isLt⟩)) = _
  rw [e1, e2, hfg, hfg]

/-- The global term of a flat row against the tiled global parameters is the sum over the 200 steps and 2 parameters. -/
theorem globalRow_steps (one : EReal) (f θ : Fin 400 → EReal) (g : Fin 200 → Fin 2 → EReal) (θ' : Fin 2 → EReal)
    (hfg : ∀ t p, f (flatPos t p) = g t p) (hθ : ∀ t p, θ (flatPos t p) = θ' p) :
    globalRow one f θ = ∑ t : Fin 200, ∑ p : Fin 2, (Ideal.div (g t p) (θ' p) - one) * (Ideal.div (g t p) (θ' p) - one) := by
  unfold globalRow
  refine (sum_fin_blocks 200 2 (fun j : Fin 400 => (Ideal.div (f j) (θ j) - one) * (Ideal.div (f j) (θ j) - one))).trans ?_
  refine Finset.sum_congr rfl fun t _ => Finset.sum_congr rfl fun p _ => ?_
  show (Ideal.div (f (flatPos t p)) (θ (flatPos t p)) - one) * (Ideal.div (f (flatPos t p)) (θ (flatPos t p)) - one) = _
  rw [hfg, hθ]

/-! ## The one-step-ahead term as the reference computes it -/

/-- The 0/1 mask as the reference computes it: the comparison bit converted to a float, unsigned. -/
def maskR (len : BitVec 32) (t : Fin 199) : EReal :=
  FloatOps.uitofp (F := Ideal) .f32 (IntOp.cmpi .slt (BitVec.ofNat 32 t.val) (IntOp.subi len 1#32))

/-- The count as the reference computes it: the word max(length - 1, 1) · 64, converted to a float. -/
def cntR (len : BitVec 32) : EReal :=
  FloatOps.sitofp (F := Ideal) .f32 (IntOp.muli (IntOp.maxsi (IntOp.subi len 1#32) 1#32) 64#32)

/-- One individual's term as the reference computes it: every (step, covariate) term masked, summed from the literal 0. -/
def stepRowR (cv : Fin 200 → Fin 65 → EReal) (sp : Fin 199 → Fin 64 → EReal) (len : BitVec 32) : EReal :=
  perInd cntR len (Ideal.ofBits .f32 0x00000000#32 + ∑ t : Fin 199, ∑ d : Fin 64, sqErr cv sp t d * maskR len t)

theorem bit_cases (b : BitVec 1) : b = 0#1 ∨ b = 1#1 := by
  have h : ∀ b : BitVec 1, b = 0#1 ∨ b = 1#1 := by decide
  exact h b

/-- The two spellings of the mask agree. -/
theorem mask_eq (len : BitVec 32) (t : Fin 199) : maskK len t = maskR len t := by
  unfold maskK maskR
  rcases bit_cases (IntOp.cmpi .slt (BitVec.ofNat 32 t.val) (IntOp.subi len 1#32)) with h | h <;> rw [h]
  · show ((((0#1 : BitVec 1).setWidth 32).toInt : ℝ) : EReal) = (((0#1 : BitVec 1).toNat : ℝ) : EReal)
    have e0 : ((0#1 : BitVec 1).setWidth 32).toInt = 0 := by decide
    have e0' : (0#1 : BitVec 1).toNat = 0 := by decide
    rw [e0, e0']; simp
  · show ((((1#1 : BitVec 1).setWidth 32).toInt : ℝ) : EReal) = (((1#1 : BitVec 1).toNat : ℝ) : EReal)
    have e1 : ((1#1 : BitVec 1).setWidth 32).toInt = 1 := by decide
    have e1' : (1#1 : BitVec 1).toNat = 1 := by decide
    rw [e1, e1']; simp

/-- The mask is 0 or 1. -/
theorem maskR_cases (len : BitVec 32) (t : Fin 199) : maskR len t = 0 ∨ maskR len t = 1 := by
  unfold maskR
  rcases bit_cases (IntOp.cmpi .slt (BitVec.ofNat 32 t.val) (IntOp.subi len 1#32)) with h | h <;> rw [h]
  · left
    show (((0#1 : BitVec 1).toNat : ℝ) : EReal) = 0
    have e0' : (0#1 : BitVec 1).toNat = 0 := by decide
    rw [e0']; simp
  · right
    show (((1#1 : BitVec 1).toNat : ℝ) : EReal) = 1
    have e1' : (1#1 : BitVec 1).toNat = 1 := by decide
    rw [e1']; simp

/-- A finite sum of extended reals times 0 or 1 is the sum of the terms times it. -/
theorem sum_mul_mask (x : Fin 64 → EReal) (μ : EReal) (hμ : μ = 0 ∨ μ = 1) : (∑ d : Fin 64, x d) * μ = ∑ d : Fin 64, x d * μ := by
  rcases hμ with h | h <;> subst h
  · simp
  · simp

/-- The float literal 64. -/
theorem ofBits_64 : Ideal.ofBits .f32 0x42800000#32 = ((64 : ℝ) : EReal) := by
  simp [Ideal.ofBits, Ideal.ieee, -EReal.coe_mul]
  norm_num

/-- For a length word n with 2 ≤ n ≤ 200 the word product (n - 1) · 64 does not wrap. -/
theorem cnt_words : ∀ n : Fin 201, 2 ≤ n.val →
    (IntOp.muli (IntOp.maxsi (IntOp.subi (BitVec.ofNat 32 n.val) 1#32) 1#32) 64#32).toInt
      = (IntOp.maxsi (IntOp.subi (BitVec.ofNat 32 n.val) 1#32) 1#32).toInt * 64 := by
  decide +kernel

/-- The two counts agree when 1 < length ≤ 200 (signed). -/
theorem cnt_eq (len : BitVec 32) (h1 : 1 < len.toInt) (h2 : len.toInt ≤ 200) : cntK len = cntR len := by
  have hlt := len.isLt
  have hn : 2 ≤ len.toNat ∧ len.toNat ≤ 200 := by
    unfold BitVec.toInt at h1 h2
    split at h1 <;> simp at h1 h2 <;> omega
  obtain ⟨hge, hle⟩ := hn
  have hlen : BitVec.ofNat 32 len.toNat = len := by simp
  have hw := cnt_words ⟨len.toNat, by omega⟩ hge
  dsimp only at hw
  rw [hlen] at hw
  unfold cntK cntR
  show (((IntOp.maxsi (IntOp.subi len 1#32) 1#32).toInt : ℝ) : EReal) * Ideal.ofBits .f32 0x42800000#32
      = (((IntOp.muli (IntOp.maxsi (IntOp.subi len 1#32) 1#32) 64#32).toInt : ℝ) : EReal)
  rw [ofBits_64, hw, ← EReal.coe_mul]
  push_cast
  rfl

/-- THE ONE-STEP-AHEAD TERM: the kernel's and the reference's agree for a length at most 200 (signed). -/
theorem stepRow_eq (cv : Fin 200 → Fin 65 → EReal) (sp : Fin 199 → Fin 64 → EReal) (len : BitVec 32) (hlen : len.toInt ≤ 200) :
    stepRowK cv sp len = stepRowR cv sp len := by
  unfold stepRowK stepRowR
  have hsum : (∑ t : Fin 199, (∑ d : Fin 64, sqErr cv sp t d) * maskK len t)
      = Ideal.ofBits .f32 0x00000000#32 + ∑ t : Fin 199, ∑ d : Fin 64, sqErr cv sp t d * maskR len t := by
    rw [Ideal.ofBits_zero_f32, zero_add]
    refine Finset.sum_congr rfl fun t _ => ?_
    rw [mask_eq, sum_mul_mask _ _ (maskR_cases len t)]
  rw [hsum]
  unfold perInd
  rcases bit_cases (IntOp.cmpi .sgt len 1#32) with h | h
  · rw [h]; rfl
  · have h1 : (1#32 : BitVec 32).toInt < len.toInt := IntOp.cmpi_sgt.mp h
    have e1 : (1#32 : BitVec 32).toInt = 1 := by decide
    rw [e1] at h1
    rw [cnt_eq len h1 hlen]

end Cert.RowBridge

end
-- ==== Proof.KernelRows.lean ====
/-
  The kernel's three totals as sums over individuals, steps and parameters or covariates of the ARGUMENT arrays.

  A total over the 128 tiles of the sum over a tile's 32 rows is the sum over all 4096 rows. Row b of the flat parameters
  at position 2t + p is the parameter array at (b, t, p); the tiled global parameters at position 2t + p are global
  parameter p; the lengths' column at row b is the length of b; the covariates and predictions reach the region as given.
-/
import proofs.«171033_j89902255440407_2_alg».proof.Proof.KernelResult
import proofs.«171033_j89902255440407_2_alg».proof.Proof.RowBridge

set_option maxRecDepth 16384

open scoped BigOperators

noncomputable section

namespace Cert.KernelIdeal.Rows

open Cert.KernelIdeal Cert.KernelIdeal.Gen Cert.KernelIdeal.Arrays Cert.KernelIdeal.Result
open Idealize.ShloMosaic Idealize.ShloMosaic.TcCoe Idealize.SL.Sem Idealize.ShloMosaic.ValueIdx
open Cert.RowTerms Cert.RowBridge Cert.LibSumBlocks

variable (m : (ℓ : Loc nD τ sig) → Buf (Elt Ideal) ℓ)

/-- The argument arrays on core c, as functions of their indices. -/
abbrev a0 (c : Dev nD) : S2.Idx → EReal := m ((c : Thread nD τ).loc main_arg0)
abbrev a1 (c : Dev nD) : S4096x200x2.Idx → EReal := m ((c : Thread nD τ).loc main_arg1)
abbrev a3 (c : Dev nD) : S4096x199x64.Idx → EReal := m ((c : Thread nD τ).loc main_arg3)
abbrev a4 (c : Dev nD) : S4096x200x65.Idx → EReal := m ((c : Thread nD τ).loc main_arg4)
abbrev a5 (c : Dev nD) : S4096.Idx → BitVec 32 := m ((c : Thread nD τ).loc main_arg5)

/-- Over the 128 tiles and each tile's 32 rows: over all 4096 rows. -/
theorem sum_tiles (F : Fin 4096 → EReal) : ∑ p : Fin 128, ∑ r : Fin 32, F (row p r) = ∑ b : Fin 4096, F b :=
  (sum_fin_blocks 128 32 F).symm

/-- The flat parameters at row b, position 2t + p: the parameters at (b, t, p). -/
theorem flat_at (c : Dev nD) (b : Fin 4096) (t : Fin 200) (p : Fin 2) :
    (V m c main_v0 : S4096x400.Idx → EReal) (ix2 b (flatPos t p)) = a1 m c (ix3 b t p) := by
  rw [V_v0]
  exact shapeCast_apply _ shapeCasts_S4096x200x2_S4096x400 (ix2 b (flatPos t p)) (ix3 b t p) (by
    rw [Shape.rowMajor_val_two, Shape.rowMajor_val_three]
    show (b.val * 200 + t.val) * 2 + p.val = b.val * 400 + (2 * t.val + p.val)
    omega)

/-- The tiled global parameters at position 2t + p: global parameter p. -/
theorem tiled_at (c : Dev nD) (t : Fin 200) (p : Fin 2) :
    (V m c main_v4 : S1x400.Idx → EReal) (ix2 (0 : Fin 1) (flatPos t p)) = a0 m c (ix1 p) := by
  rw [V_v4]
  refine (shapeCast_apply _ shapeCasts_S400_S1x400 (ix2 (0 : Fin 1) (flatPos t p)) (ix1 (flatPos t p)) ?_).trans ?_
  · rw [Shape.rowMajor_val_one, Shape.rowMajor_val_two]
    show 2 * t.val + p.val = 0 * 400 + (2 * t.val + p.val)
    omega
  refine (shapeCast_apply _ shapeCasts_S200x2_S400 (ix1 (flatPos t p)) (ix2 t p) ?_).trans ?_
  · rw [Shape.rowMajor_val_two, Shape.rowMajor_val_one]
    show t.val * 2 + p.val = 2 * t.val + p.val
    omega
  refine (Cert.LibBroadcastInDim.row_to_mat_apply ![0, 1] rfl rfl bcast_S1x2_S200x2_0_1 _ t p).trans ?_
  exact shapeCast_apply _ shapeCasts_S2_S1x2 (ix2 (0 : Fin 1) p) (ix1 p) (by
    rw [Shape.rowMajor_val_one, Shape.rowMajor_val_two]
    show p.val = 0 * 2 + p.val
    omega)

/-- The lengths' column at row b: the length of individual b. -/
theorem len_at (c : Dev nD) (b : Fin 4096) :
    (V m c main_v5 : S4096x1.Idx → BitVec 32) (ix2 b (0 : Fin 1)) = a5 m c (ix1 b) := by
  rw [V_v5]
  exact Cert.LibKeepdims.shapeCast_a_a1_apply _ shapeCasts_S4096_S4096x1 b 0

/-- The drift total. -/
theorem tot6_eq (c : Dev nD) (i : S_.Idx) : tot (G6 m c) i
    = Ideal.ofBits .f32 0x00000000#32 + ∑ b : Fin 4096, ∑ t : Fin 199, ∑ p : Fin 2,
        (a1 m c (ix3 b (stepPrev t) p) - a1 m c (ix3 b (stepSucc t) p))
          * (a1 m c (ix3 b (stepPrev t) p) - a1 m c (ix3 b (stepSucc t) p)) := by
  rw [tot_apply]
  refine congrArg₂ (· + ·) rfl ?_
  refine (sum_tiles (fun b => thetaRow (fun j => (V m c main_v0 : S4096x400.Idx → EReal) (ix2 b j)))).trans ?_
  exact Finset.sum_congr rfl fun b _ => thetaRow_steps (fun j => (V m c main_v0 : S4096x400.Idx → EReal) (ix2 b j))
    (fun t p => a1 m c (ix3 b t p)) (fun t p => flat_at m c b t p)

/-- The global total. -/
theorem tot7_eq (c : Dev nD) (i : S_.Idx) : tot (G7 m c) i
    = Ideal.ofBits .f32 0x00000000#32 + ∑ b : Fin 4096, ∑ t : Fin 200, ∑ p : Fin 2,
        (Ideal.div (a1 m c (ix3 b t p)) (a0 m c (ix1 p)) - Ideal.ofBits .f32 0x3F800000#32)
          * (Ideal.div (a1 m c (ix3 b t p)) (a0 m c (ix1 p)) - Ideal.ofBits .f32 0x3F800000#32) := by
  rw [tot_apply]
  refine congrArg₂ (· + ·) rfl ?_
  refine (sum_tiles (fun b => globalRow (Ideal.ofBits .f32 0x3F800000#32) (fun j => (V m c main_v0 : S4096x400.Idx → EReal) (ix2 b j))
    (fun j => (V m c main_v4 : S1x400.Idx → EReal) (ix2 (0 : Fin 1) j)))).trans ?_
  exact Finset.sum_congr rfl fun b _ => globalRow_steps (Ideal.ofBits .f32 0x3F800000#32)
    (fun j => (V m c main_v0 : S4096x400.Idx → EReal) (ix2 b j)) (fun j => (V m c main_v4 : S1x400.Idx → EReal) (ix2 (0 : Fin 1) j))
    (fun t p => a1 m c (ix3 b t p)) (fun p => a0 m c (ix1 p)) (fun t p => flat_at m c b t p) (fun t p => tiled_at m c t p)

/-- The one-step-ahead total, each individual's term as the kernel computes it. -/
theorem tot5_eq (c : Dev nD) (i : S_.Idx) : tot (G5 m c) i
    = Ideal.ofBits .f32 0x00000000#32 + ∑ b : Fin 4096, stepRowK
        (fun t d => a4 m c (ix3 b t d))
        (fun t d => a3 m c (ix3 b t d))
        (a5 m c (ix1 b)) := by
  rw [tot_apply]
  refine congrArg₂ (· + ·) rfl ?_
  refine (sum_tiles (fun b => stepRowK
    (fun t d => (V m c main_arg4 : S4096x200x65.Idx → EReal) (ix3 b t d))
    (fun t d => (V m c main_arg3 : S4096x199x64.Idx → EReal) (ix3 b t d))
    ((V m c main_v5 : S4096x1.Idx → BitVec 32) (ix2 b (0 : Fin 1))))).trans ?_
  refine Finset.sum_congr rfl fun b _ => stepRowK_congr ?_ ?_ (len_at m c b)
  · exact funext fun t => funext fun d => congrFun (V_main_arg4 m c) _
  · exact funext fun t => funext fun d => congrFun (V_main_arg3 m c) _

end Cert.KernelIdeal.Rows

end
-- ==== Proof.LibReduceRows.lean ====
/-
  A host sum of a rank-3 array over its last two axes, read at a row.

  Summing an array of shape [n0, n1, n2] over axes 1 and 2 leaves a vector of length n0 whose entry b is the initial
  value plus the sum, over every (t, d), of the array at (b, t, d): an index of the array drops to b exactly when its
  first coordinate is b.
-/
import Idealize.ShloMosaic.PureOps.Ideal.Laws
import Idealize.ShloMosaic.Lib.ValueIdx
import proofs.«171033_j89902255440407_2_alg».proof.Proof.LibIdxSums

open scoped BigOperators

namespace Cert.LibReduceRows

open Idealize.ShloMosaic Idealize.ShloMosaic.ValueIdx Cert.LibIdxSums

/-- The host's sum over axes 1 and 2, at the extended reals, read at row `b`. -/
theorem hostReduceAdd_rows {n0 n1 n2 : Nat}
    (h' : (⟨3, ![n0, n1, n2]⟩ : Shape).ReducesTo [1, 2] ⟨1, ![n0]⟩) (x : (⟨3, ![n0, n1, n2]⟩ : Shape).Idx → EReal)
    (init : EReal) (b : Fin n0) :
    Ideal.hostReduceAdd h' x init (ix1 b) = init + ∑ t : Fin n1, ∑ d : Fin n2, x (ix3 b t d) := by
  unfold Ideal.hostReduceAdd
  congr 1
  have hd : ∀ (a : Fin n0) (t : Fin n1) (d : Fin n2), h'.drop (ix3 a t d) = ix1 b ↔ a = b := by
    intro a t d
    have hv : (h'.drop (ix3 a t d) 0 : Nat) = a.val := rfl
    constructor
    · intro e
      have e0 : (h'.drop (ix3 a t d) 0 : Nat) = ((ix1 b : (⟨1, ![n0]⟩ : Shape).Idx) 0 : Nat) := congrArg (fun q => (q 0 : Nat)) e
      exact Fin.ext (hv.symm.trans e0)
    · intro e
      subst e
      funext ax
      match ax with
      | ⟨0, _⟩ => exact Fin.ext hv
  rw [Finset.sum_filter, sum_idx3]
  simp only [hd]
  rw [Finset.sum_congr rfl (fun a _ => show (∑ t : Fin n1, ∑ d : Fin n2, if a = b then x (ix3 a t d) else 0)
      = if a = b then ∑ t : Fin n1, ∑ d : Fin n2, x (ix3 a t d) else 0 from by
        by_cases hab : a = b
        · simp only [if_pos hab]
        · simp only [if_neg hab, Finset.sum_const_zero])]
  rw [Finset.sum_ite_eq' Finset.univ b, if_pos (Finset.mem_univ b)]

end Cert.LibReduceRows
-- ==== Proof.RefRows.lean ====
/-
  The reference's three totals, read as sums over individuals, steps and parameters or covariates.

  The reference takes the drift and global means over the whole (4096, 199, 2) and (4096, 200, 2) arrays at once and the
  one-step-ahead mean over the 4096 individuals of a per-individual quotient; each total is the literal 0 plus a sum
  over every index, which is the iterated sum over the coordinates.
-/
import proofs.«171033_j89902255440407_2_alg».proof.Proof.Gen.ReferenceIdeal.Read
import proofs.«171033_j89902255440407_2_alg».proof.Proof.RowBridge
import proofs.«171033_j89902255440407_2_alg».proof.Proof.LibIdxSums
import proofs.«171033_j89902255440407_2_alg».proof.Proof.LibReduceRows
import proofs.«171033_j89902255440407_2_alg».proof.Proof.Combine
import Idealize.ShloMosaic.Lib.ValueIdx

set_option maxRecDepth 16384

open scoped BigOperators

noncomputable section

namespace Cert.ReferenceIdeal.RefRows

open Cert.ReferenceIdeal Cert.ReferenceIdeal.Gen Cert.ReferenceIdeal.Read
open Idealize.ShloMosaic Idealize.ShloMosaic.ValueIdx Cert.RowTerms Cert.RowBridge Cert.LibIdxSums Cert.LibReduceRows Cert.Combine

variable (x0 : (⟨S2, .f32⟩ : BufTy).Contents (Elt Ideal)) (x1 : (⟨S4096x200x2, .f32⟩ : BufTy).Contents (Elt Ideal)) (x3 : (⟨S4096x199x64, .f32⟩ : BufTy).Contents (Elt Ideal))
  (x4 : (⟨S4096x200x65, .f32⟩ : BufTy).Contents (Elt Ideal)) (x5 : (⟨S4096, .i32⟩ : BufTy).Contents (Elt Ideal))

/-! ## The drift total -/

theorem v32_at (b : Fin 4096) (t : Fin 199) (p : Fin 2) :
    val_main_v32 (F := Ideal) x1 (ix3 b t p)
      = (x1 (ix3 b (stepPrev t) p) - x1 (ix3 b (stepSucc t) p)) * (x1 (ix3 b (stepPrev t) p) - x1 (ix3 b (stepSucc t) p)) := by
  have i29 : idx_main_v29 (ix3 b t p) = ix3 b (stepPrev t) p :=
    funext fun a => match a with | ⟨0, _⟩ => rfl | ⟨1, _⟩ => rfl | ⟨2, _⟩ => rfl
  have i30 : idx_main_v30 (ix3 b t p) = ix3 b (stepSucc t) p :=
    funext fun a => match a with
      | ⟨0, _⟩ => rfl
      | ⟨1, _⟩ => Fin.ext (by show 1 + t.val = t.val + 1; omega)
      | ⟨2, _⟩ => rfl
  rw [val_main_v32_apply, val_main_v31_apply, val_main_v29_apply, val_main_v30_apply, i29, i30]
  rfl

theorem v33_eq (i : S_.Idx) : val_main_v33 (F := Ideal) x1 i
    = Ideal.ofBits .f32 0x00000000#32 + ∑ b : Fin 4096, ∑ t : Fin 199, ∑ p : Fin 2,
        (x1 (ix3 b (stepPrev t) p) - x1 (ix3 b (stepSucc t) p)) * (x1 (ix3 b (stepPrev t) p) - x1 (ix3 b (stepSucc t) p)) := by
  rw [val_main_v33_apply]
  refine congrArg₂ (· + ·) rfl ?_
  refine (sum_idx3 _).trans ?_
  exact Finset.sum_congr rfl fun b _ => Finset.sum_congr rfl fun t _ => Finset.sum_congr rfl fun p _ => v32_at x1 b t p

/-! ## The global total -/

theorem v40_at (b : Fin 4096) (t : Fin 200) (p : Fin 2) :
    val_main_v40 (F := Ideal) x0 x1 (ix3 b t p)
      = (Ideal.div (x1 (ix3 b t p)) (x0 (ix1 p)) - Ideal.ofBits .f32 0x3F800000#32)
        * (Ideal.div (x1 (ix3 b t p)) (x0 (ix1 p)) - Ideal.ofBits .f32 0x3F800000#32) := by
  have i36 : idx_main_v35 (idx_main_v36 (ix3 b t p)) = ix1 p :=
    funext fun a => match a with | ⟨0, _⟩ => rfl
  rw [val_main_v40_apply, val_main_v39_apply, val_main_v37_apply, val_main_v36_apply, val_main_v35_apply, i36,
    val_main_v38_apply, val_main_cst_9_apply]
  rfl

theorem v41_eq (i : S_.Idx) : val_main_v41 (F := Ideal) x0 x1 i
    = Ideal.ofBits .f32 0x00000000#32 + ∑ b : Fin 4096, ∑ t : Fin 200, ∑ p : Fin 2,
        (Ideal.div (x1 (ix3 b t p)) (x0 (ix1 p)) - Ideal.ofBits .f32 0x3F800000#32)
          * (Ideal.div (x1 (ix3 b t p)) (x0 (ix1 p)) - Ideal.ofBits .f32 0x3F800000#32) := by
  rw [val_main_v41_apply]
  refine congrArg₂ (· + ·) rfl ?_
  refine (sum_idx3 _).trans ?_
  exact Finset.sum_congr rfl fun b _ => Finset.sum_congr rfl fun t _ => Finset.sum_congr rfl fun p _ => v40_at x0 x1 b t p

/-! ## The one-step-ahead total -/

theorem v14_at (b : Fin 4096) (t : Fin 199) (d : Fin 64) :
    val_main_v14 (F := Ideal) x3 x4 x5 (ix3 b t d)
      = sqErr (fun t d => x4 (ix3 b t d)) (fun t d => x3 (ix3 b t d)) t d * maskR (x5 (ix1 b)) t := by
  have i0 : idx_main_v0 (ix3 b t d) = ix3 b (stepSucc t) (covSucc d) :=
    funext fun a => match a with
      | ⟨0, _⟩ => rfl
      | ⟨1, _⟩ => Fin.ext (by show 1 + t.val = t.val + 1; omega)
      | ⟨2, _⟩ => Fin.ext (by show 1 + d.val = d.val + 1; omega)
  have i5 : idx_main_v5 (idx_main_v9 (idx_main_v12 (idx_main_v13 (ix3 b t d)))) = ix1 b :=
    funext fun a => match a with | ⟨0, _⟩ => rfl
  rw [val_main_v14_apply, val_main_v2_apply, val_main_v1_apply, val_main_v0_apply, i0,
    val_main_v13_apply, val_main_v12_apply, val_main_v11_apply, val_main_v10_apply,
    val_main_v8_apply, val_main_v4_apply, val_main_v3_apply,
    val_main_v9_apply, val_main_v7_apply, val_main_v5_apply, i5, val_main_v6_apply, val_main_c_apply]
  rfl

theorem v15_at (b : Fin 4096) : val_main_v15 (F := Ideal) x3 x4 x5 (ix1 b)
    = Ideal.ofBits .f32 0x00000000#32 + ∑ t : Fin 199, ∑ d : Fin 64,
        sqErr (fun t d => x4 (ix3 b t d)) (fun t d => x3 (ix3 b t d)) t d * maskR (x5 (ix1 b)) t := by
  unfold val_main_v15
  simp only [Host.reduceAdd, Ideal.hostReduceAdd_def]
  refine (hostReduceAdd_rows reducesTo_S4096x199x64_S4096_d1_2 _ _ b).trans ?_
  refine congrArg₂ (· + ·) rfl ?_
  exact Finset.sum_congr rfl fun t _ => Finset.sum_congr rfl fun d _ => v14_at x3 x4 x5 b t d

theorem v26_at (b : Fin 4096) : val_main_v26 (F := Ideal) x3 x4 x5 (ix1 b)
    = stepRowR (fun t d => x4 (ix3 b t d)) (fun t d => x3 (ix3 b t d)) (x5 (ix1 b)) := by
  rw [val_main_v26_apply, val_main_v24_apply, val_main_v23_apply, val_main_c_3_apply,
    val_main_v25_apply, v15_at, val_main_v22_apply, val_main_v21_apply, val_main_v19_apply, val_main_v17_apply,
    val_main_v16_apply, val_main_c_0_apply, val_main_v18_apply, val_main_c_1_apply, val_main_v20_apply, val_main_c_2_apply,
    val_main_call0_v1_apply, val_main_call0_v0_apply, val_main_cst_4_apply]
  rfl

theorem v27_eq (i : S_.Idx) : val_main_v27 (F := Ideal) x3 x4 x5 i
    = Ideal.ofBits .f32 0x00000000#32 + ∑ b : Fin 4096,
        stepRowR (fun t d => x4 (ix3 b t d)) (fun t d => x3 (ix3 b t d)) (x5 (ix1 b)) := by
  rw [val_main_v27_apply]
  refine congrArg₂ (· + ·) rfl ?_
  refine (sum_idx1 _).trans ?_
  exact Finset.sum_congr rfl fun b _ => v26_at x3 x4 x5 b

/-! ## The reference's result -/

/-- The reference's result is the weighted sum of its three totals' means. -/
theorem result_eq : val_main_v47 (F := Ideal) x0 x1 x3 x4 x5
    = combine (val_main_v27 (F := Ideal) x3 x4 x5) (val_main_v33 (F := Ideal) x1) (val_main_v41 (F := Ideal) x0 x1) := rfl

end Cert.ReferenceIdeal.RefRows

end
-- ==== Proof.PreLen.lean ====
/-
  The precondition gives every length at most 200.

  The precondition is the conjunction of the float inputs' finiteness with "every length is at most 200" (signed, the
  number of steps of a trajectory); its last conjunct is an all-reduction of the 4096 comparisons, each of which is then
  true.
-/
import proofs.«171033_j89902255440407_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.Pre_finite_inputs.Len

open Cert.Pre_finite_inputs Cert.Pre_finite_inputs.Gen
open Idealize.ShloMosaic Idealize.ShloMosaic.ValueIdx

instance : Subsingleton S_.Idx := ⟨fun a b => funext fun d => d.elim0⟩

/-- Under the precondition the length of every individual is at most 200, read signed. -/
theorem len_le (x0 : FVec Ideal S2 .f32) (x1 : FVec Ideal S4096x200x2 .f32) (x2 : FVec Ideal S4096x200x64 .f32)
    (x3 : FVec Ideal S4096x199x64 .f32) (x4 : FVec Ideal S4096x200x65 .f32) (x5 : IVec S4096 32)
    (h : fn (F := Ideal) x0 x1 x2 x3 x4 x5 = fun _ => 1#1) (b : Fin 4096) : (x5 (ix1 b)).toInt ≤ 200 := by
  have e := congrFun h ix0
  dsimp only [fn, fn_part1] at e
  have e2 := (IntOp.andi_eq_one.1 e).2
  have e3 := Host.reduce_andi_all _ _ reducesTo_S4096_S_d0 h_S_ ix0 e2 (ix1 b)
  have e4 : IntOp.cmpi .sle (x5 (ix1 b)) 200#32 = 1#1 := e3
  have e5 := IntOp.cmpi_sle.1 e4
  have e6 : (200#32 : BitVec 32).toInt = 200 := by decide
  omega

end Cert.Pre_finite_inputs.Len

end
-- ==== Proof.Bridge.lean ====
/-
  The two programs' results are one number.

  Both end with the same weighted sum of three means, so it is enough that the three totals agree: the drift and global
  totals are the same sums regrouped, and the one-step-ahead totals agree individual by individual once every length
  is at most 200, which the precondition gives.
-/
import proofs.«171033_j89902255440407_2_alg».proof.Proof.KernelRows
import proofs.«171033_j89902255440407_2_alg».proof.Proof.RefRows
import proofs.«171033_j89902255440407_2_alg».proof.Proof.PreLen

set_option maxRecDepth 16384

open scoped BigOperators

noncomputable section

namespace Cert.Bridge

open Idealize.ShloMosaic Idealize.ShloMosaic.TcCoe Idealize.SL.Sem Idealize.ShloMosaic.ValueIdx
open Cert.RowTerms Cert.RowBridge Cert.Combine

variable (m : (ℓ : Loc Cert.KernelIdeal.nD Cert.KernelIdeal.τ Cert.KernelIdeal.sig) → Buf (Elt Ideal) ℓ)

/-- The reference's result on the kernel's arguments is the kernel's result. -/
theorem result_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    combine (Cert.ReferenceIdeal.Read.val_main_v27 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
        (Cert.ReferenceIdeal.Read.val_main_v33 (F := Ideal) (m ((c.tc : Thread Cert.KernelIdeal.nD Cert.KernelIdeal.τ).loc Cert.KernelIdeal.main_arg1)))
        (Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      = combine (Cert.KernelIdeal.Result.tot (Cert.KernelIdeal.Arrays.G5 m c)) (Cert.KernelIdeal.Result.tot (Cert.KernelIdeal.Arrays.G6 m c)) (Cert.KernelIdeal.Result.tot (Cert.KernelIdeal.Arrays.G7 m c)) := by
  have h5 : Cert.ReferenceIdeal.Read.val_main_v27 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = Cert.KernelIdeal.Result.tot (Cert.KernelIdeal.Arrays.G5 m c) :=
    funext fun i => by
      refine (Cert.ReferenceIdeal.RefRows.v27_eq _ _ _ i).trans (Eq.trans ?_ (Cert.KernelIdeal.Rows.tot5_eq m c i).symm)
      refine congrArg₂ (· + ·) rfl ?_
      refine Finset.sum_congr rfl fun b _ => ?_
      exact (stepRow_eq _ _ _ (Cert.Pre_finite_inputs.Len.len_le _ _ _ _ _ _ hpre b)).symm
  have h6 : Cert.ReferenceIdeal.Read.val_main_v33 (F := Ideal) (m ((c.tc : Thread Cert.KernelIdeal.nD Cert.KernelIdeal.τ).loc Cert.KernelIdeal.main_arg1)) = Cert.KernelIdeal.Result.tot (Cert.KernelIdeal.Arrays.G6 m c) :=
    funext fun i => (Cert.ReferenceIdeal.RefRows.v33_eq _ i).trans (Cert.KernelIdeal.Rows.tot6_eq m c i).symm
  have h7 : Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = Cert.KernelIdeal.Result.tot (Cert.KernelIdeal.Arrays.G7 m c) :=
    funext fun i => (Cert.ReferenceIdeal.RefRows.v41_eq _ _ i).trans (Cert.KernelIdeal.Rows.tot7_eq m c i).symm
  rw [h5, h6, h7]

end Cert.Bridge

end
-- ==== Proof.lean ====
/-
  The regularizer of a batch of 4096 trajectories: a Pallas kernel over 128 blocks of 32 individuals, followed by a sum
  over the blocks, against the plain jnp computation.

  Both programs return  1 · (A / 4096) + 0.1 · (B / 1630208) + 0.01 · (C / 1638400)  with the same float literals, where
    A = Σ_b  [length_b > 1]  ( Σ_{t < 199, d < 64} (cov[b, t+1, d+1] - pred[b, t, d])² · [t < length_b - 1] ) / (max(length_b - 1, 1) · 64),
    B = Σ_{b, t < 199, p < 2} (θ[b, t, p] - θ[b, t+1, p])²,
    C = Σ_{b, t < 200, p < 2} (θ[b, t, p] / g[p] - 1)².
  The kernel lays each individual's 200 × 2 parameters flat in a row of 400 (position 2t + p), computes a block's 32 row
  terms and their sum per grid point, spreads that number over a tile of the output, and the host sums the 128 tiles;
  the reference sums whole arrays at once. At the extended reals a finite sum may be regrouped freely (commutativity
  and associativity only), which gives B and C with no use of finiteness. For A the kernel masks a step's sum over the
  covariates where the reference masks every term — the mask is 0 or 1, and x · 0 = 0, x · 1 = x hold of every extended
  real — and the kernel multiplies the converted count by the float 64 where the reference multiplies the 32-bit words
  by 64 before converting: these agree when the word product does not wrap, which "every length is at most 200" (the
  number of steps of a trajectory) ensures; for length ≤ 1 the count is not used.
  The idealization rewrote nothing, so `preserves` is trivial; the two kernels' frames are generated whole, and the
  reference's frame is its generated run with the result dropped.
-/
import proofs.«171033_j89902255440407_2_alg».proof.Defs
import proofs.«171033_j89902255440407_2_alg».proof.Proof.Gen.Kernel
import proofs.«171033_j89902255440407_2_alg».proof.Proof.Gen.Kernel.Skeleton
import proofs.«171033_j89902255440407_2_alg».proof.Proof.Gen.Kernel.Launch
import proofs.«171033_j89902255440407_2_alg».proof.Proof.Gen.Kernel.Points
import proofs.«171033_j89902255440407_2_alg».proof.Proof.Gen.Kernel.Frame
import proofs.«171033_j89902255440407_2_alg».proof.Proof.Gen.KernelIdeal
import proofs.«171033_j89902255440407_2_alg».proof.Proof.Gen.KernelIdeal.Skeleton
import proofs.«171033_j89902255440407_2_alg».proof.Proof.Gen.KernelIdeal.Launch
import proofs.«171033_j89902255440407_2_alg».proof.Proof.Gen.KernelIdeal.Points
import proofs.«171033_j89902255440407_2_alg».proof.Proof.Gen.KernelIdeal.Frame
import proofs.«171033_j89902255440407_2_alg».proof.Proof.Gen.ReferenceIdeal
import proofs.«171033_j89902255440407_2_alg».proof.Proof.Gen.Pre_finite_inputs
import proofs.«171033_j89902255440407_2_alg».proof.Proof.Gen.ReferenceIdeal.Run
import proofs.«171033_j89902255440407_2_alg».proof.Proof.Gen.ReferenceIdeal.Read
import Idealize.ShloMosaic.Adequacy
import Idealize.ShloMosaic.Init
import proofs.«171033_j89902255440407_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result is the weighted sum of its three totals' means (its run, with the output
    arrays read tile by tile), the reference's is the same weighted sum of its own totals (its generated run), and the
    totals agree on arguments that agree and satisfy the precondition. -/
theorem algebraic : Cert.algebraic_KernelIdeal_ReferenceIdeal := by
  intro m ρ m' ρ' hpre hagree
  refine ⟨fun c => Cert.Combine.combine (Cert.KernelIdeal.Result.tot (Cert.KernelIdeal.Arrays.G5 m c))
    (Cert.KernelIdeal.Result.tot (Cert.KernelIdeal.Arrays.G6 m c)) (Cert.KernelIdeal.Result.tot (Cert.KernelIdeal.Arrays.G7 m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefRows.result_eq,
    (hagree c).1, (hagree c).2.1, (hagree c).2.2.2.1, (hagree c).2.2.2.2.1, (hagree c).2.2.2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
